-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v71)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000x64 : S_.BroadcastsInDim S100000x64 (![] : Fin 0 → Fin S100000x64.rank)
  reducesTo_S100000x64_S_d0_1 : S100000x64.ReducesTo [0, 1] S_

variable [Facts]

def fn_part2 {F : FTy → Type} [FloatOps F] (main_arg8 : FVec F S100000x64 .f32) (main_v33 : IVec S_ 1) : IVec S_ 1 :=
  let main_v34 : FVec F S100000x64 .f32 := Host.absf main_arg8
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  main_v38

def fn_part1 {F : FTy → Type} [FloatOps F] (main_arg5 : FVec F S64 .f32) (main_arg6 : FVec F S128x64 .f32) (main_arg7 : FVec F S64 .f32) (main_arg8 : FVec F S100000x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128x64 .f32) (main_arg7 : FVec F S64 .f32) (main_arg8 : FVec F S100000x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S5000x64 : Shape := ⟨2, ![5000, 64]⟩

abbrev nBuf : Space → Nat
  | .hbm => 96
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S100000, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S128x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S1600000x1, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S128, .f32⟩
  | .hbm, ⟨86, _⟩ => ⟨S100000x1, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S100000x64, .f32⟩
  | .hbm, ⟨94, _⟩ => ⟨S100000x64, .f32⟩
  | .hbm, ⟨95, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S128x64_S128x64_S128x128_d1 : Shape.Concatenates [S128x64, S128x64] S128x128 1
  shapeCasts_S5000x128_S5000x128 : S5000x128.ShapeCasts S5000x128
  shapeCasts_S128x128_S128x128 : S128x128.ShapeCasts S128x128
  concatenates_S64_S64_S128_d0 : Shape.Concatenates [S64, S64] S128 0
  slices_S100000x128_S100000x64_0_0 : S100000x128.Slices ![0, 0] S100000x64
  slices_S100000x128_S100000x64_0_64 : S100000x128.Slices ![0, 64] S100000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v71) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v73) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S100000x64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S100000x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000, .f32⟩
  | 60 => ⟨S100000x1, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S100000x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000, .f32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .f32⟩
  | 96 => ⟨S1600000x1, .f32⟩
  | 97 => ⟨S1600000x64, .f32⟩
  | 98 => ⟨S1600000x64, .f32⟩
  | 99 => ⟨S_, .f32⟩
  | 100 => ⟨S100000x64, .f32⟩
  | 101 => ⟨S1600000x1, .i32⟩
  | 102 => ⟨S100000x64, .f32⟩
  | 103 => ⟨S100000, .f32⟩
  | 104 => ⟨S100000x1, .f32⟩
  | 105 => ⟨S100000x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S100000x64, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_1 (i : Nat) : BufTy := match i % 128 with
  | 0 => ⟨S1600000x1, .i32⟩
  | 1 => ⟨S1600000, .f32⟩
  | 2 => ⟨S1600000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x64, .f32⟩
  | 12 => ⟨S1600000x1, .f32⟩
  | 13 => ⟨S1600000x64, .f32⟩
  | 14 => ⟨S1600000x64, .f32⟩
  | 15 => ⟨S_, .f32⟩
  | 16 => ⟨S100000x64, .f32⟩
  | 17 => ⟨S1600000x1, .i32⟩
  | 18 => ⟨S100000x64, .f32⟩
  | 19 => ⟨S100000, .f32⟩
  | 20 => ⟨S100000x1, .f32⟩
  | 21 => ⟨S100000x64, .f32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S100000x64, .f32⟩
  | 28 => ⟨S100000x64, .f32⟩
  | 29 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_15 : Ref sig .tc := ⟨.hbm, 112, rfl⟩
abbrev main_v86 : Ref sig .tc := ⟨.hbm, 113, rfl⟩
abbrev main_v87 : Ref sig .tc := ⟨.hbm, 114, rfl⟩
abbrev main_c_16 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_17 : Ref sig .tc := ⟨.hbm, 121, rfl⟩
abbrev main_v93 : Ref sig .tc := ⟨.hbm, 122, rfl⟩
abbrev main_v94 : Ref sig .tc := ⟨.hbm, 123, rfl⟩
abbrev main_c_18 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_19 : Ref sig .tc := ⟨.hbm, 131, rfl⟩
abbrev main_v101 : Ref sig .tc := ⟨.hbm, 132, rfl⟩
abbrev main_v102 : Ref sig .tc := ⟨.hbm, 133, rfl⟩
abbrev main_c_20 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_21 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its results named.

  @main is three stretches of host operations, each followed by one pipelined region. Walking the
  buffer contents through these six segments from the launch memory gives, at the end, every
  unscoped buffer at the last valuation of that walk (`Gen.W6`): a region's arrays at what its
  write-backs leave, every other buffer as the preceding stretch of host operations left it.
  So every weakly fair execution terminates with the three result buffers holding `Gen.W6` read at
  their references, and the nine argument arrays as launched.
-/
import proofs.«142419_j83915071030119_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates; each result buffer then holds the last
    valuation of the walk through the segments, read at that buffer, and the arguments are as launched. -/
theorem run_results : θ_run defs (onTc (τ := τ) (main (F := F))) ⟨m, fun _ => 0, ρ⟩ (fun r => ∀ c : Dev nD,
      r.2.mem ((c.tc : Thread nD τ).loc main_v73) = W6 m ρ c (Proc.devRef .tc main_v73)
      ∧ r.2.mem ((c.tc : Thread nD τ).loc main_v71) = W6 m ρ c (Proc.devRef .tc main_v71)
      ∧ r.2.mem ((c.tc : Thread nD τ).loc main_v72) = W6 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v73 (by decide)),
       h c _ (mem_uc main_v71 (by decide)),
       h c _ (mem_uc main_v72 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.KernelTerms.lean ====
/-
  The idealized kernel's host arithmetic, named.

  The graph is an edge list `a1 : i32[2, E]` (row 0 the sources, row 1 the targets), `E = 1600000`
  edges over `N = 100000` nodes. With `deg n = 1 + #{e | target e = n}` and `dis = deg^(-1/2)`:
    * `norm e = dis (source e) · dis (target e)`   (the symmetric normalisation of edge `e`),
    * `selfScale n = dis n · dis n`                (the self loop's weight),
    * `layer H b` is one graph convolution of an already projected feature matrix `H : [N, 128]`:
        row `n` = Σ_{e : target e = n} norm e · H[source e]  +  selfScale n · H[n]  +  b.
  A gather reads its index signed, negative indices wrapped by `N` first (`wrapCol`); the scatter reads
  the raw target (`rawCol`). `wcomb` / `bcomb` put the two heads' weights and biases side by side, and
  `headMu` / `headLs` cut columns 0–63 and 64–127 out of a 128-column result.
-/
import proofs.«142419_j83915071030119_1_alg».proof.Proof.Gen.KernelIdeal

set_option maxRecDepth 16384

noncomputable section

namespace Cert.KernelIdeal.Terms

open Cert.KernelIdeal Idealize.ShloMosaic
open Facts₀ Facts

variable {F : FTy → Type} [FloatOps F]

/-- Row 0 of the edge list, flat: the sources. -/
def src (a1 : (⟨S2x1600000, .i32⟩ : BufTy).Contents (Elt F)) : (⟨S1600000, .i32⟩ : BufTy).Contents (Elt F) :=
  shapeCast S1600000 (extractStridedSlice S1x1600000 ![0, 0] a1 slices_S2x1600000_S1x1600000_0_0) shapeCasts_S1x1600000_S1600000

/-- Row 1 of the edge list, flat: the targets. -/
def dst (a1 : (⟨S2x1600000, .i32⟩ : BufTy).Contents (Elt F)) : (⟨S1600000, .i32⟩ : BufTy).Contents (Elt F) :=
  shapeCast S1600000 (extractStridedSlice S1x1600000 ![1, 0] a1 slices_S2x1600000_S1x1600000_1_0) shapeCasts_S1x1600000_S1600000

/-- An index vector as a one-column matrix, as given. -/
def rawCol (v : (⟨S1600000, .i32⟩ : BufTy).Contents (Elt F)) : (⟨S1600000x1, .i32⟩ : BufTy).Contents (Elt F) :=
  broadcastInDim S1600000x1 ![0] bcast_S1600000_S1600000x1_0 v

/-- An index vector as a one-column matrix, a negative index moved up by `N` first. -/
def wrapCol (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- `deg^(-1/2)`, the degree counting each edge at its target plus the self loop. -/
def dis (d : (⟨S1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32)) (rawCol d)
      (broadcastInDim S1600000 ![] bcast_S_S1600000 (constant S_ .f32 0x3F800000#32)))
    (broadcastInDim S100000 ![] bcast_S_S100000 (constant S_ .f32 0x3F800000#32)))

/-- The symmetric normalisation of each edge. -/
def norm (s d : (⟨S1600000, .i32⟩ : BufTy).Contents (Elt F)) : (⟨S1600000, .f32⟩ : BufTy).Contents (Elt F) :=
  mulf (Host.gather gather_S100000_S1600000x1_S1600000_n_0_n_n_0_1_1 (dis d) (wrapCol s))
    (Host.gather gather_S100000_S1600000x1_S1600000_n_0_n_n_0_1_1 (dis d) (wrapCol d))

/-- The self loop's weight at each node. -/
def selfScale (d : (⟨S1600000, .i32⟩ : BufTy).Contents (Elt F)) : (⟨S100000, .f32⟩ : BufTy).Contents (Elt F) :=
  mulf (dis d) (dis d)

/-- One graph convolution of a projected 128-column feature matrix. -/
def layer (s d : (⟨S1600000, .i32⟩ : BufTy).Contents (Elt F)) (nrm : (⟨S1600000, .f32⟩ : BufTy).Contents (Elt F))
    (ss : (⟨S100000, .f32⟩ : BufTy).Contents (Elt F)) (H : (⟨S100000x128, .f32⟩ : BufTy).Contents (Elt F))
    (b : (⟨S128, .f32⟩ : BufTy).Contents (Elt F)) : (⟨S100000x128, .f32⟩ : BufTy).Contents (Elt F) :=
  addf (addf
    (Host.scatterAdd scatter_S100000x128_S1600000x1_S1600000x128_1_0_0_1
      (broadcastInDim S100000x128 ![] bcast_S_S100000x128 (constant S_ .f32 0x00000000#32)) (rawCol d)
      (mulf (Host.gather gather_S100000x128_S1600000x1_S1600000x128_1_0_n_n_0_1_1128 H (wrapCol s))
        (broadcastInDim S1600000x128 ![0, 1] bcast_S1600000x1_S1600000x128_0_1
          (broadcastInDim S1600000x1 ![0] bcast_S1600000_S1600000x1_0 nrm))))
    (mulf H (broadcastInDim S100000x128 ![0, 1] bcast_S100000x1_S100000x128_0_1
      (broadcastInDim S100000x1 ![0] bcast_S100000_S100000x1_0 ss))))
    (broadcastInDim S100000x128 ![0, 1] bcast_S1x128_S100000x128_0_1 (broadcastInDim S1x128 ![1] bcast_S128_S1x128_1 b))

/-- The two heads' weights side by side: columns 0–63 the first, 64–127 the second. -/
def wcomb (wmu wls : (⟨S128x64, .f32⟩ : BufTy).Contents (Elt F)) : (⟨S128x128, .f32⟩ : BufTy).Contents (Elt F) :=
  concatenate S128x128 1 [⟨S128x64, wmu⟩, ⟨S128x64, wls⟩] concatenates_S128x64_S128x64_S128x128_d1

/-- The two heads' biases one after the other. -/
def bcomb (bmu bls : (⟨S64, .f32⟩ : BufTy).Contents (Elt F)) : (⟨S128, .f32⟩ : BufTy).Contents (Elt F) :=
  concatenate S128 0 [⟨S64, bmu⟩, ⟨S64, bls⟩] concatenates_S64_S64_S128_d0

/-- Columns 0–63 of a 128-column matrix. -/
def headMu (x : (⟨S100000x128, .f32⟩ : BufTy).Contents (Elt F)) : (⟨S100000x64, .f32⟩ : BufTy).Contents (Elt F) :=
  extractStridedSlice S100000x64 ![0, 0] x slices_S100000x128_S100000x64_0_0

/-- Columns 64–127 of a 128-column matrix. -/
def headLs (x : (⟨S100000x128, .f32⟩ : BufTy).Contents (Elt F)) : (⟨S100000x64, .f32⟩ : BufTy).Contents (Elt F) :=
  extractStridedSlice S100000x64 ![0, 64] x slices_S100000x128_S100000x64_0_64

end Cert.KernelIdeal.Terms

end
-- ==== Proof.KernelStretch0.lean ====
/-
  The first stretch of the kernel's host operations, read back from any buffer contents `W`:
  it leaves the flat source and target vectors, the edges' normalisation and the nodes' self-loop
  weight as the named functions of the edge list, and touches no argument array.
-/
import proofs.«142419_j83915071030119_1_alg».proof.Proof.KernelTerms
import proofs.«142419_j83915071030119_1_alg».proof.Proof.Gen.KernelIdeal.Launch
import Idealize.ShloMosaic.Lib.StableHlo.Run

set_option maxRecDepth 16384

noncomputable section

namespace Cert.KernelIdeal.Stretch

open Cert.KernelIdeal Cert.KernelIdeal.Gen Cert.KernelIdeal.Terms
open Idealize.ShloMosaic Idealize.ShloMosaic.TcCoe Idealize.SL.Sem Idealize.ShloMosaic.StableHlo

variable {F : FTy → Type} [FloatOps F] (W : Valuation τ sig (Elt F))

theorem s0_v1 : StableHlo.after hostOps0 W (Proc.devRef .tc main_v1) = src (W (Proc.devRef .tc main_arg1)) := by
  after_results_simp; rfl
theorem s0_v3 : StableHlo.after hostOps0 W (Proc.devRef .tc main_v3) = dst (W (Proc.devRef .tc main_arg1)) := by
  after_results_simp; rfl
theorem s0_v25 : StableHlo.after hostOps0 W (Proc.devRef .tc main_v25)
    = norm (src (W (Proc.devRef .tc main_arg1))) (dst (W (Proc.devRef .tc main_arg1))) := by
  after_results_simp; rfl
theorem s0_v26 : StableHlo.after hostOps0 W (Proc.devRef .tc main_v26) = selfScale (dst (W (Proc.devRef .tc main_arg1))) := by
  after_results_simp; rfl
theorem s0_arg0 : StableHlo.after hostOps0 W (Proc.devRef .tc main_arg0) = W (Proc.devRef .tc main_arg0) := by after_results_simp
theorem s0_arg2 : StableHlo.after hostOps0 W (Proc.devRef .tc main_arg2) = W (Proc.devRef .tc main_arg2) := by after_results_simp
theorem s0_arg3 : StableHlo.after hostOps0 W (Proc.devRef .tc main_arg3) = W (Proc.devRef .tc main_arg3) := by after_results_simp
theorem s0_arg4 : StableHlo.after hostOps0 W (Proc.devRef .tc main_arg4) = W (Proc.devRef .tc main_arg4) := by after_results_simp
theorem s0_arg5 : StableHlo.after hostOps0 W (Proc.devRef .tc main_arg5) = W (Proc.devRef .tc main_arg5) := by after_results_simp
theorem s0_arg6 : StableHlo.after hostOps0 W (Proc.devRef .tc main_arg6) = W (Proc.devRef .tc main_arg6) := by after_results_simp
theorem s0_arg7 : StableHlo.after hostOps0 W (Proc.devRef .tc main_arg7) = W (Proc.devRef .tc main_arg7) := by after_results_simp
theorem s0_arg8 : StableHlo.after hostOps0 W (Proc.devRef .tc main_arg8) = W (Proc.devRef .tc main_arg8) := by after_results_simp

end Cert.KernelIdeal.Stretch

end
-- ==== Proof.KernelStretch1.lean ====
/-
  The second stretch of the kernel's host operations, read back from any buffer contents `W`:
  the first graph convolution of the projected features held in the first region's output, with the
  first layer's bias, and the two heads' weight matrices put side by side. The index vectors, the
  normalisation, the self-loop weight and the remaining arguments are left as they were.
-/
import proofs.«142419_j83915071030119_1_alg».proof.Proof.KernelTerms
import proofs.«142419_j83915071030119_1_alg».proof.Proof.Gen.KernelIdeal.Launch
import Idealize.ShloMosaic.Lib.StableHlo.Run

set_option maxRecDepth 16384

noncomputable section

namespace Cert.KernelIdeal.Stretch

open Cert.KernelIdeal Cert.KernelIdeal.Gen Cert.KernelIdeal.Terms
open Idealize.ShloMosaic Idealize.ShloMosaic.TcCoe Idealize.SL.Sem Idealize.ShloMosaic.StableHlo

variable {F : FTy → Type} [FloatOps F] (W : Valuation τ sig (Elt F))

theorem s1_v47 : StableHlo.after hostOps1 W (Proc.devRef .tc main_v47)
    = layer (W (Proc.devRef .tc main_v1)) (W (Proc.devRef .tc main_v3)) (W (Proc.devRef .tc main_v25))
        (W (Proc.devRef .tc main_v26)) (W (Proc.devRef .tc main_v27)) (W (Proc.devRef .tc main_arg3)) := by
  after_results_simp; rfl
theorem s1_v48 : StableHlo.after hostOps1 W (Proc.devRef .tc main_v48)
    = wcomb (W (Proc.devRef .tc main_arg4)) (W (Proc.devRef .tc main_arg6)) := by
  after_results_simp; rfl
theorem s1_v1 : StableHlo.after hostOps1 W (Proc.devRef .tc main_v1) = W (Proc.devRef .tc main_v1) := by after_results_simp
theorem s1_v3 : StableHlo.after hostOps1 W (Proc.devRef .tc main_v3) = W (Proc.devRef .tc main_v3) := by after_results_simp
theorem s1_v25 : StableHlo.after hostOps1 W (Proc.devRef .tc main_v25) = W (Proc.devRef .tc main_v25) := by after_results_simp
theorem s1_v26 : StableHlo.after hostOps1 W (Proc.devRef .tc main_v26) = W (Proc.devRef .tc main_v26) := by after_results_simp
theorem s1_arg5 : StableHlo.after hostOps1 W (Proc.devRef .tc main_arg5) = W (Proc.devRef .tc main_arg5) := by after_results_simp
theorem s1_arg7 : StableHlo.after hostOps1 W (Proc.devRef .tc main_arg7) = W (Proc.devRef .tc main_arg7) := by after_results_simp
theorem s1_arg8 : StableHlo.after hostOps1 W (Proc.devRef .tc main_arg8) = W (Proc.devRef .tc main_arg8) := by after_results_simp

end Cert.KernelIdeal.Stretch

end
-- ==== Proof.KernelStretch2.lean ====
/-
  The third stretch of the kernel's host operations, read back from any buffer contents `W`:
  the second graph convolution, of the 128-column projection held in the second region's output
  with the two heads' biases one after the other, cut into its two 64-column heads. The noise
  argument is left as it was.
-/
import proofs.«142419_j83915071030119_1_alg».proof.Proof.KernelTerms
import proofs.«142419_j83915071030119_1_alg».proof.Proof.Gen.KernelIdeal.Launch
import Idealize.ShloMosaic.Lib.StableHlo.Run

set_option maxRecDepth 16384

noncomputable section

namespace Cert.KernelIdeal.Stretch

open Cert.KernelIdeal Cert.KernelIdeal.Gen Cert.KernelIdeal.Terms
open Idealize.ShloMosaic Idealize.ShloMosaic.TcCoe Idealize.SL.Sem Idealize.ShloMosaic.StableHlo

variable {F : FTy → Type} [FloatOps F] (W : Valuation τ sig (Elt F))

theorem s2_v71 : StableHlo.after hostOps2 W (Proc.devRef .tc main_v71)
    = headMu (layer (W (Proc.devRef .tc main_v1)) (W (Proc.devRef .tc main_v3)) (W (Proc.devRef .tc main_v25))
        (W (Proc.devRef .tc main_v26)) (W (Proc.devRef .tc main_v49))
        (bcomb (W (Proc.devRef .tc main_arg5)) (W (Proc.devRef .tc main_arg7)))) := by
  after_results_simp; rfl
theorem s2_v72 : StableHlo.after hostOps2 W (Proc.devRef .tc main_v72)
    = headLs (layer (W (Proc.devRef .tc main_v1)) (W (Proc.devRef .tc main_v3)) (W (Proc.devRef .tc main_v25))
        (W (Proc.devRef .tc main_v26)) (W (Proc.devRef .tc main_v49))
        (bcomb (W (Proc.devRef .tc main_arg5)) (W (Proc.devRef .tc main_arg7)))) := by
  after_results_simp; rfl
theorem s2_arg8 : StableHlo.after hostOps2 W (Proc.devRef .tc main_arg8) = W (Proc.devRef .tc main_arg8) := by after_results_simp

end Cert.KernelIdeal.Stretch

end
-- ==== Proof.RegionMatmul0.lean ====
/- The first block product, as a function of whole arrays.

   The program multiplies a matrix of 100000 rows and 128 columns by a square matrix of order 128, twenty
   row blocks of 5000 rows at a time: at each of the twenty points it loads one row block of the left factor
   and the whole right factor, forms their product with a zero accumulator, and writes the product back as
   the same row block of the result. Rounding the factors to the narrow format is the identity on the
   extended reals, so each entry of a block product is the plain sum over the inner index of the products of
   the entries. Row block `t` of the left factor is rows `5000 t … 5000 t + 4999`, so block `t` of the result
   is block `t` of the product of the whole arrays; the twenty blocks cover every row (row `r` lies in block
   `r / 5000`), hence the result array is the product of the two arrays, entry by entry. Everything is stated
   for arbitrary contents of the buffers at the moment the product starts. -/
import proofs.«142419_j83915071030119_1_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- Row block times the whole right factor, entry by entry: the product of a matrix of 100000 rows
    with a square matrix of order 128. -/
def matProd (A : S100000x128.Idx → EReal) (B : S128x128.Idx → EReal) : S100000x128.Idx → EReal :=
  fun i => ∑ k : Fin 128, A (ix2 (⟨(i 0).val, idx2_lt0 i⟩ : Fin 100000) k) * B (ix2 k (⟨(i 1).val, idx2_lt1 i⟩ : Fin 128))

theorem matProd_apply (A : S100000x128.Idx → EReal) (B : S128x128.Idx → EReal) (r : Fin 100000) (q : Fin 128) :
    matProd A B (ix2 r q) = ∑ k : Fin 128, A (ix2 r k) * B (ix2 k q) := rfl

theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k

theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k

theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product read at an entry: rounding to the narrow format is the identity on the
    extended reals and the accumulator is zero, so the entry is the plain sum of products. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]
  rfl

/-! ## From blocks to the array -/

theorem hz : (![0, 0] : Fin 2 → Nat) = fun _ => 0 := funext fun a => by fin_cases a <;> rfl

/-- The index maps over the grid: the left factor's row block and the output's row block both sit at
    the point's number, the right factor's block is always the whole matrix. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

section
variable (V : (c : Dev nD) → (b : Ref sig .tc) → Buf (Elt Ideal) ((c : Thread nD τ).loc b))

/-- The left factor's block at point `t` is rows `5000 t … 5000 t + 4999` of its array. -/
theorem iblk0_0_apply (c : Dev nD) (t : Fin cfg0.N) (p : Fin 5000) (k : Fin 128) (i : S100000x128.Idx)
    (hi0 : (i 0).val = t.val * 5000 + p.val) (hi1 : (i 1).val = k.val) :
    (iblk0 V c 0 t : Vec Ideal S5000x128 .f32) (ix2 p k) = (V c (Pipeline.arrRef spec0 0) : S100000x128.Idx → EReal) i := by
  obtain ⟨e0, e1, e2, e3, e4, e5⟩ := idx_facts0 t
  unfold iblk0
  rw [View.read_apply]
  show V c (Pipeline.arrRef spec0 0) (((cfg0.win 0).blk t).view.emb (ix2 p k)) = V c (Pipeline.arrRef spec0 0) i
  refine congrArg (V c (Pipeline.arrRef spec0 0)) ?_
  funext a; apply Fin.ext
  match a with
  | ⟨0, _⟩ => show win0_0.index t (0 : Fin 2) * 5000 + 1 * p.val = (i 0).val; omega
  | ⟨1, _⟩ => show win0_0.index t (1 : Fin 2) * 128 + 1 * k.val = (i 1).val; omega

/-- The right factor's block at every point is its whole array. -/
theorem iblk0_1_apply (c : Dev nD) (t : Fin cfg0.N) (k q : Fin 128) :
    (iblk0 V c 1 t : Vec Ideal S128x128 .f32) (ix2 k q) = (V c (Pipeline.arrRef spec0 1) : S128x128.Idx → EReal) (ix2 k q) := by
  obtain ⟨e0, e1, e2, e3, e4, e5⟩ := idx_facts0 t
  unfold iblk0
  rw [View.read_apply]
  show V c (Pipeline.arrRef spec0 1) (((cfg0.win 1).blk t).view.emb (ix2 k q)) = V c (Pipeline.arrRef spec0 1) (ix2 k q)
  refine congrArg (V c (Pipeline.arrRef spec0 1)) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

end

/-- One block of the product: if `x0` is rows `5000 n …` of `A` and `x1` is `B`, the block product at an
    entry is the whole product at the corresponding entry of the array. -/
theorem block_eq (A : S100000x128.Idx → EReal) (B : S128x128.Idx → EReal)
    (x0 : Vec Ideal S5000x128 .f32) (x1 : Vec Ideal S128x128 .f32) (n : Nat)
    (h0 : ∀ (p : Fin 5000) (k : Fin 128) (i : S100000x128.Idx), (i 0).val = n * 5000 + p.val → (i 1).val = k.val →
      x0 (ix2 p k) = A i)
    (h1 : ∀ (k q : Fin 128), x1 (ix2 k q) = B (ix2 k q))
    (j : S5000x128.Idx) (i : S100000x128.Idx) (hi0 : (i 0).val = n * 5000 + (j 0).val) (hi1 : (i 1).val = (j 1).val) :
    k0_pay1 x0 x1 j = matProd A B i := by
  obtain ⟨p, q, rfl⟩ : ∃ (p : Fin 5000) (q : Fin 128), j = ix2 p q := ⟨j 0, j 1, eq_ix2 j⟩
  rw [pay0_apply]
  unfold matProd
  refine Finset.sum_congr rfl fun k _ => ?_
  rw [h0 p k (ix2 (⟨(i 0).val, idx2_lt0 i⟩ : Fin 100000) k) hi0 rfl, h1 k q]
  have hq : (⟨(i 1).val, idx2_lt1 i⟩ : Fin 128) = q := Fin.ext hi1
  rw [hq]

section
variable (V : (c : Dev nD) → (b : Ref sig .tc) → Buf (Elt Ideal) ((c : Thread nD τ).loc b))

/-- What point `t` writes back is block `t` of the product of the two arrays as the region finds them. -/
theorem flushed0_eq (c : Dev nD) (t : Fin cfg0.N) :
    (dat0 V c).flushed 2 t = ((cfg0.win 2).blk t).view.read (Elt Ideal)
      (matProd (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  funext j
  show k0_pay1 (iblk0 V c 0 t) (iblk0 V c 1 t) j
    = matProd (V c (Pipeline.arrRef spec0 0)) (V c (Pipeline.arrRef spec0 1)) (((cfg0.win 2).blk t).view.emb j)
  refine block_eq (V c (Pipeline.arrRef spec0 0)) (V c (Pipeline.arrRef spec0 1)) (iblk0 V c 0 t) (iblk0 V c 1 t) t.val
    (fun p k i h0 h1 => iblk0_0_apply V c t p k i h0 h1) (fun k q => iblk0_1_apply V c t k q) j
    (((cfg0.win 2).blk t).view.emb j) ?_ ?_
  · show win0_2.index t (0 : Fin 2) * 5000 + 1 * (j 0).val = t.val * 5000 + (j 0).val; omega
  · show win0_2.index t (1 : Fin 2) * 128 + 1 * (j 1).val = (j 1).val; omega

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every row lies in the block of the point numbered by the row divided by the block height. -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  refine ⟨⟨(i 0).val / 5000, by rw [hN]; omega⟩, flush0_2 _, ?_⟩
  rw [mem_blk0]
  obtain ⟨e0, e1, e2, e3, e4, e5⟩ := idx_facts0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The output array after all points is the product of the two input arrays as the region finds them. -/
theorem region0_array (c : Dev nD) :
    (dat0 V c).arrAt 2 cfg0.N = matProd (V c (Pipeline.arrRef spec0 0)) (V c (Pipeline.arrRef spec0 1)) :=
  (dat0 V c).arrAt_eq_of_cover 2 (matProd (V c (Pipeline.arrRef spec0 0)) (V c (Pipeline.arrRef spec0 1)))
    (fun t _ => flushed0_eq V c t) cover0

/-- The two factors as the region finds them, as functions into the extended reals. -/
abbrev lhs0 (c : Dev nD) : S100000x128.Idx → EReal := V c (Pipeline.arrRef spec0 0)
abbrev rhs0 (c : Dev nD) : S128x128.Idx → EReal := V c (Pipeline.arrRef spec0 1)

/-- The output array after all points, read at an entry: the sum over the inner index of the products. -/
theorem region0_apply (c : Dev nD) (r : Fin 100000) (q : Fin 128) :
    ((dat0 V c).arrAt 2 cfg0.N : S100000x128.Idx → EReal) (ix2 r q)
      = ∑ k : Fin 128, lhs0 V c (ix2 r k) * rhs0 V c (ix2 k q) := by
  rw [region0_array V c]
  rfl

end

end Cert.KernelIdeal.RegionValue

end
-- ==== Proof.RegionMatmul1.lean ====
/- The second block product, as a function of whole arrays.

   The same product as the first one, of another pair of arrays: a matrix of 100000 rows and 128 columns times
   a square matrix of order 128, twenty row blocks of 5000 rows at a time. The body differs from the first
   product's only by reshaping each loaded block to its own shape, which changes nothing, so each block product
   is the same function of its two blocks, and the passage from blocks to the whole array is the same: block `t`
   of the result is block `t` of the product of the whole arrays and the twenty blocks cover every row. -/
import proofs.«142419_j83915071030119_1_alg».proof.Proof.Gen.KernelIdeal.Frame
import proofs.«142419_j83915071030119_1_alg».proof.Proof.RegionMatmul0
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- Reshaping a block to its own shape is the identity, so the second product's body computes the same
    function of its two blocks as the first one's. -/
theorem pay1_eq (x0 : Vec Ideal S5000x128 .f32) (x1 : Vec Ideal S128x128 .f32) : k1_pay1 x0 x1 = k0_pay1 x0 x1 := by
  unfold k1_pay1 k0_pay1
  simp only [shapeCast_self]

/-! ## From blocks to the array -/

/-- The index maps over the grid: the left factor's row block and the output's row block both sit at
    the point's number, the right factor's block is always the whole matrix. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

section
variable (V : (c : Dev nD) → (b : Ref sig .tc) → Buf (Elt Ideal) ((c : Thread nD τ).loc b))

/-- The left factor's block at point `t` is rows `5000 t … 5000 t + 4999` of its array. -/
theorem iblk1_0_apply (c : Dev nD) (t : Fin cfg1.N) (p : Fin 5000) (k : Fin 128) (i : S100000x128.Idx)
    (hi0 : (i 0).val = t.val * 5000 + p.val) (hi1 : (i 1).val = k.val) :
    (iblk1 V c 0 t : Vec Ideal S5000x128 .f32) (ix2 p k) = (V c (Pipeline.arrRef spec1 0) : S100000x128.Idx → EReal) i := by
  obtain ⟨e0, e1, e2, e3, e4, e5⟩ := idx_facts1 t
  unfold iblk1
  rw [View.read_apply]
  show V c (Pipeline.arrRef spec1 0) (((cfg1.win 0).blk t).view.emb (ix2 p k)) = V c (Pipeline.arrRef spec1 0) i
  refine congrArg (V c (Pipeline.arrRef spec1 0)) ?_
  funext a; apply Fin.ext
  match a with
  | ⟨0, _⟩ => show win1_0.index t (0 : Fin 2) * 5000 + 1 * p.val = (i 0).val; omega
  | ⟨1, _⟩ => show win1_0.index t (1 : Fin 2) * 128 + 1 * k.val = (i 1).val; omega

/-- The right factor's block at every point is its whole array. -/
theorem iblk1_1_apply (c : Dev nD) (t : Fin cfg1.N) (k q : Fin 128) :
    (iblk1 V c 1 t : Vec Ideal S128x128 .f32) (ix2 k q) = (V c (Pipeline.arrRef spec1 1) : S128x128.Idx → EReal) (ix2 k q) := by
  obtain ⟨e0, e1, e2, e3, e4, e5⟩ := idx_facts1 t
  unfold iblk1
  rw [View.read_apply]
  show V c (Pipeline.arrRef spec1 1) (((cfg1.win 1).blk t).view.emb (ix2 k q)) = V c (Pipeline.arrRef spec1 1) (ix2 k q)
  refine congrArg (V c (Pipeline.arrRef spec1 1)) ?_
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- What point `t` writes back is block `t` of the product of the two arrays as they are found. -/
theorem flushed1_eq (c : Dev nD) (t : Fin cfg1.N) :
    (dat1 V c).flushed 2 t = ((cfg1.win 2).blk t).view.read (Elt Ideal)
      (matProd (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  rw [pay1_eq]
  obtain ⟨e0, e1, e2, e3, e4, e5⟩ := idx_facts1 t
  funext j
  show k0_pay1 (iblk1 V c 0 t) (iblk1 V c 1 t) j
    = matProd (V c (Pipeline.arrRef spec1 0)) (V c (Pipeline.arrRef spec1 1)) (((cfg1.win 2).blk t).view.emb j)
  refine block_eq (V c (Pipeline.arrRef spec1 0)) (V c (Pipeline.arrRef spec1 1)) (iblk1 V c 0 t) (iblk1 V c 1 t) t.val
    (fun p k i h0 h1 => iblk1_0_apply V c t p k i h0 h1) (fun k q => iblk1_1_apply V c t k q) j
    (((cfg1.win 2).blk t).view.emb j) ?_ ?_
  · show win1_2.index t (0 : Fin 2) * 5000 + 1 * (j 0).val = t.val * 5000 + (j 0).val; omega
  · show win1_2.index t (1 : Fin 2) * 128 + 1 * (j 1).val = (j 1).val; omega

/-- An index of the array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Every row lies in the block of the point numbered by the row divided by the block height. -/
theorem cover1 (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : cfg1.N = 20 := N_1
  refine ⟨⟨(i 0).val / 5000, by rw [hN]; omega⟩, flush1_2 _, ?_⟩
  rw [mem_blk1]
  obtain ⟨e0, e1, e2, e3, e4, e5⟩ := idx_facts1 ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e5]; omega

/-- The output array after all points is the product of the two input arrays as they are found. -/
theorem region1_array (c : Dev nD) :
    (dat1 V c).arrAt 2 cfg1.N = matProd (V c (Pipeline.arrRef spec1 0)) (V c (Pipeline.arrRef spec1 1)) :=
  (dat1 V c).arrAt_eq_of_cover 2 (matProd (V c (Pipeline.arrRef spec1 0)) (V c (Pipeline.arrRef spec1 1)))
    (fun t _ => flushed1_eq V c t) cover1

/-- The two factors as they are found, as functions into the extended reals. -/
abbrev lhs1 (c : Dev nD) : S100000x128.Idx → EReal := V c (Pipeline.arrRef spec1 0)
abbrev rhs1 (c : Dev nD) : S128x128.Idx → EReal := V c (Pipeline.arrRef spec1 1)

/-- The output array after all points, read at an entry: the sum over the inner index of the products. -/
theorem region1_apply (c : Dev nD) (r : Fin 100000) (q : Fin 128) :
    ((dat1 V c).arrAt 2 cfg1.N : S100000x128.Idx → EReal) (ix2 r q)
      = ∑ k : Fin 128, lhs1 V c (ix2 r k) * rhs1 V c (ix2 k q) := by
  rw [region1_array V c]
  rfl

end

end Cert.KernelIdeal.RegionValue

end
-- ==== Proof.RegionReparam.lean ====
/- The pointwise combination, as a function of whole arrays.

   From three arrays of 100000 rows and 64 columns the program forms, entry by entry, the first plus the
   third times the exponential of the second, twenty row blocks of 5000 rows at a time: at each point it loads
   the same row block of the three arrays and writes the combination back as that row block of the result.
   Every operation acts entry by entry, so block `t` of the result is block `t` of the combination of the
   whole arrays; the twenty blocks cover every row (row `r` lies in block `r / 5000`), hence the result array
   is the combination of the three arrays at every entry. The exponential is the one of the extended reals
   (zero at the bottom element, the top element at the top). Everything is stated for arbitrary contents of
   the buffers at the moment the combination starts. -/
import proofs.«142419_j83915071030119_1_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The first array plus the third times the exponential of the second, entry by entry. -/
def combine (a0 a1 a2 : S100000x64.Idx → EReal) : S100000x64.Idx → EReal :=
  fun i => a0 i + a2 i * Ideal.exp (a1 i)

/-- One block's combination at an entry: reshaping to the same shape changes nothing, and the sum, the
    product and the exponential act on the entries. -/
theorem pay2_apply (x0 x1 x2 : Vec Ideal S5000x64 .f32) (j : S5000x64.Idx) :
    k2_pay1 x0 x1 x2 j = x0 j + x2 j * Ideal.exp (x1 j) := by
  unfold k2_pay1
  simp only [shapeCast_self]
  rfl

/-! ## From blocks to the array -/

theorem zero_off2 : (![0, 0] : Fin 2 → Nat) = fun _ => 0 := funext fun a => by fin_cases a <;> rfl

/-- The index maps over the grid: each of the four row blocks sits at the point's number. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0 :=
  (by decide +kernel : ∀ t : Fin grid2.N, _)

section
variable (V : (c : Dev nD) → (b : Ref sig .tc) → Buf (Elt Ideal) ((c : Thread nD τ).loc b))

/-- The first array's block at point `t` is rows `5000 t … 5000 t + 4999` of it. -/
theorem iblk2_0_apply (c : Dev nD) (t : Fin cfg2.N) (j : S5000x64.Idx) (i : S100000x64.Idx)
    (hi0 : (i 0).val = t.val * 5000 + (j 0).val) (hi1 : (i 1).val = (j 1).val) :
    (iblk2 V c 0 t : Vec Ideal S5000x64 .f32) j = (V c (Pipeline.arrRef spec2 0) : S100000x64.Idx → EReal) i := by
  obtain ⟨e0, e1, e2, e3, e4, e5, e6, e7⟩ := idx_facts2 t
  unfold iblk2
  rw [View.read_apply]
  show V c (Pipeline.arrRef spec2 0) (((cfg2.win 0).blk t).view.emb j) = V c (Pipeline.arrRef spec2 0) i
  refine congrArg (V c (Pipeline.arrRef spec2 0)) ?_
  funext a; apply Fin.ext
  match a with
  | ⟨0, _⟩ => show win2_0.index t (0 : Fin 2) * 5000 + 1 * (j 0).val = (i 0).val; omega
  | ⟨1, _⟩ => show win2_0.index t (1 : Fin 2) * 64 + 1 * (j 1).val = (i 1).val; omega

/-- The second array's block at point `t` is the same rows of it. -/
theorem iblk2_1_apply (c : Dev nD) (t : Fin cfg2.N) (j : S5000x64.Idx) (i : S100000x64.Idx)
    (hi0 : (i 0).val = t.val * 5000 + (j 0).val) (hi1 : (i 1).val = (j 1).val) :
    (iblk2 V c 1 t : Vec Ideal S5000x64 .f32) j = (V c (Pipeline.arrRef spec2 1) : S100000x64.Idx → EReal) i := by
  obtain ⟨e0, e1, e2, e3, e4, e5, e6, e7⟩ := idx_facts2 t
  unfold iblk2
  rw [View.read_apply]
  show V c (Pipeline.arrRef spec2 1) (((cfg2.win 1).blk t).view.emb j) = V c (Pipeline.arrRef spec2 1) i
  refine congrArg (V c (Pipeline.arrRef spec2 1)) ?_
  funext a; apply Fin.ext
  match a with
  | ⟨0, _⟩ => show win2_1.index t (0 : Fin 2) * 5000 + 1 * (j 0).val = (i 0).val; omega
  | ⟨1, _⟩ => show win2_1.index t (1 : Fin 2) * 64 + 1 * (j 1).val = (i 1).val; omega

/-- The third array's block at point `t` is the same rows of it. -/
theorem iblk2_2_apply (c : Dev nD) (t : Fin cfg2.N) (j : S5000x64.Idx) (i : S100000x64.Idx)
    (hi0 : (i 0).val = t.val * 5000 + (j 0).val) (hi1 : (i 1).val = (j 1).val) :
    (iblk2 V c 2 t : Vec Ideal S5000x64 .f32) j = (V c (Pipeline.arrRef spec2 2) : S100000x64.Idx → EReal) i := by
  obtain ⟨e0, e1, e2, e3, e4, e5, e6, e7⟩ := idx_facts2 t
  unfold iblk2
  rw [View.read_apply]
  show V c (Pipeline.arrRef spec2 2) (((cfg2.win 2).blk t).view.emb j) = V c (Pipeline.arrRef spec2 2) i
  refine congrArg (V c (Pipeline.arrRef spec2 2)) ?_
  funext a; apply Fin.ext
  match a with
  | ⟨0, _⟩ => show win2_2.index t (0 : Fin 2) * 5000 + 1 * (j 0).val = (i 0).val; omega
  | ⟨1, _⟩ => show win2_2.index t (1 : Fin 2) * 64 + 1 * (j 1).val = (i 1).val; omega

end

/-- One block of the combination: if the three blocks are rows `5000 n …` of the three arrays, the block's
    combination at an entry is the arrays' combination at the corresponding entry. -/
theorem block_eq2 (a0 a1 a2 : S100000x64.Idx → EReal) (x0 x1 x2 : Vec Ideal S5000x64 .f32) (n : Nat)
    (h0 : ∀ (j : S5000x64.Idx) (i : S100000x64.Idx), (i 0).val = n * 5000 + (j 0).val → (i 1).val = (j 1).val → x0 j = a0 i)
    (h1 : ∀ (j : S5000x64.Idx) (i : S100000x64.Idx), (i 0).val = n * 5000 + (j 0).val → (i 1).val = (j 1).val → x1 j = a1 i)
    (h2 : ∀ (j : S5000x64.Idx) (i : S100000x64.Idx), (i 0).val = n * 5000 + (j 0).val → (i 1).val = (j 1).val → x2 j = a2 i)
    (j : S5000x64.Idx) (i : S100000x64.Idx) (hi0 : (i 0).val = n * 5000 + (j 0).val) (hi1 : (i 1).val = (j 1).val) :
    k2_pay1 x0 x1 x2 j = combine a0 a1 a2 i := by
  rw [pay2_apply, h0 j i hi0 hi1, h1 j i hi0 hi1, h2 j i hi0 hi1]
  rfl

section
variable (V : (c : Dev nD) → (b : Ref sig .tc) → Buf (Elt Ideal) ((c : Thread nD τ).loc b))

/-- What point `t` writes back is block `t` of the combination of the three arrays as they are found. -/
theorem flushed2_eq (c : Dev nD) (t : Fin cfg2.N) :
    (dat2 V c).flushed 3 t = ((cfg2.win 3).blk t).view.read (Elt Ideal)
      (combine (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_off2]
  simp only [View.ld_unit_zero (S := S5000x64) zero_off2]
  obtain ⟨e0, e1, e2, e3, e4, e5, e6, e7⟩ := idx_facts2 t
  funext j
  show k2_pay1 (iblk2 V c 0 t) (iblk2 V c 1 t) (iblk2 V c 2 t) j
    = combine (V c (Pipeline.arrRef spec2 0)) (V c (Pipeline.arrRef spec2 1)) (V c (Pipeline.arrRef spec2 2))
        (((cfg2.win 3).blk t).view.emb j)
  refine block_eq2 (V c (Pipeline.arrRef spec2 0)) (V c (Pipeline.arrRef spec2 1)) (V c (Pipeline.arrRef spec2 2))
    (iblk2 V c 0 t) (iblk2 V c 1 t) (iblk2 V c 2 t) t.val
    (fun j i h0 h1 => iblk2_0_apply V c t j i h0 h1) (fun j i h0 h1 => iblk2_1_apply V c t j i h0 h1)
    (fun j i h0 h1 => iblk2_2_apply V c t j i h0 h1) j (((cfg2.win 3).blk t).view.emb j) ?_ ?_
  · show win2_3.index t (0 : Fin 2) * 5000 + 1 * (j 0).val = t.val * 5000 + (j 0).val; omega
  · show win2_3.index t (1 : Fin 2) * 64 + 1 * (j 1).val = (j 1).val; omega

/-- An index of the array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v73).slice (win2_3.rect t)).set ↔ _
  rw [View.set_slice_whole, Rect.mem_set_unit]
  exact Iff.rfl

/-- Every row lies in the block of the point numbered by the row divided by the block height. -/
theorem cover2 (i : S100000x64.Idx) :
    ∃ t : Fin cfg2.N, (cfg2.win 3).flush t = true ∧ i ∈ ((cfg2.win 3).blk t).view.set := by
  have hi0 : (i 0).val < 100000 := idx2_lt0 i
  have hi1 : (i 1).val < 64 := idx2_lt1 i
  have hN : cfg2.N = 20 := N_2
  refine ⟨⟨(i 0).val / 5000, by rw [hN]; omega⟩, flush2_3 _, ?_⟩
  rw [mem_blk2]
  obtain ⟨e0, e1, e2, e3, e4, e5, e6, e7⟩ := idx_facts2 ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e6]; show (i 0).val / 5000 * 5000 ≤ (i 0).val ∧ (i 0).val < (i 0).val / 5000 * 5000 + 5000; omega
  | ⟨1, _⟩ =>
    show win2_3.index _ (1 : Fin 2) * 64 ≤ (i 1).val ∧ (i 1).val < win2_3.index _ (1 : Fin 2) * 64 + 64
    rw [e7]; omega

/-- The output array after all points is the combination of the three input arrays as they are found. -/
theorem region2_array (c : Dev nD) :
    (dat2 V c).arrAt 3 cfg2.N
      = combine (V c (Pipeline.arrRef spec2 0)) (V c (Pipeline.arrRef spec2 1)) (V c (Pipeline.arrRef spec2 2)) :=
  (dat2 V c).arrAt_eq_of_cover 3
    (combine (V c (Pipeline.arrRef spec2 0)) (V c (Pipeline.arrRef spec2 1)) (V c (Pipeline.arrRef spec2 2)))
    (fun t _ => flushed2_eq V c t) cover2

/-- The three input arrays as they are found, as functions into the extended reals. -/
abbrev in2_0 (c : Dev nD) : S100000x64.Idx → EReal := V c (Pipeline.arrRef spec2 0)
abbrev in2_1 (c : Dev nD) : S100000x64.Idx → EReal := V c (Pipeline.arrRef spec2 1)
abbrev in2_2 (c : Dev nD) : S100000x64.Idx → EReal := V c (Pipeline.arrRef spec2 2)

/-- The output array after all points, read at an entry. -/
theorem region2_apply (c : Dev nD) (r : Fin 100000) (q : Fin 64) :
    ((dat2 V c).arrAt 3 cfg2.N : S100000x64.Idx → EReal) (ix2 r q)
      = in2_0 V c (ix2 r q) + in2_2 V c (ix2 r q) * Ideal.exp (in2_1 V c (ix2 r q)) := by
  rw [region2_array V c]
  rfl

end

end Cert.KernelIdeal.RegionValue

end
-- ==== Proof.KernelValue.lean ====
/-
  The idealized kernel's three results as the named arithmetic of its arguments.

  The walk through @main's six segments is read buffer by buffer. After the first stretch the
  source and target vectors, the edges' normalisation and the self-loop weights are the named
  functions of the edge list; the first region leaves the input features times the first weights;
  the second stretch leaves the hidden layer (one graph convolution of that product) and the two
  heads' weights side by side; the second region leaves the hidden layer times those; the third
  stretch leaves the two 64-column heads of one graph convolution of that 128-column product; the
  last region leaves the sample, the first head plus the noise times the exponential of the second.
  Every other buffer named here is carried unchanged across the segments that do not write it.
-/
import proofs.«142419_j83915071030119_1_alg».proof.Proof.KernelStretch0
import proofs.«142419_j83915071030119_1_alg».proof.Proof.KernelStretch1
import proofs.«142419_j83915071030119_1_alg».proof.Proof.KernelStretch2
import proofs.«142419_j83915071030119_1_alg».proof.Proof.RegionMatmul0
import proofs.«142419_j83915071030119_1_alg».proof.Proof.RegionMatmul1
import proofs.«142419_j83915071030119_1_alg».proof.Proof.RegionReparam
import proofs.«142419_j83915071030119_1_alg».proof.Proof.Gen.KernelIdeal.Frame

set_option maxRecDepth 16384

noncomputable section

namespace Cert.KernelIdeal.KernelValue

open Cert.KernelIdeal Cert.KernelIdeal.Gen Cert.KernelIdeal.Terms Cert.KernelIdeal.Stretch Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-! ## After the first stretch -/

theorem W1_v1 : W1 m ρ c (Proc.devRef .tc main_v1) = (src (m ((c : Thread nD τ).loc main_arg1))) := s0_v1 (W0 m ρ c)
theorem W1_v3 : W1 m ρ c (Proc.devRef .tc main_v3) = (dst (m ((c : Thread nD τ).loc main_arg1))) := s0_v3 (W0 m ρ c)
theorem W1_v25 : W1 m ρ c (Proc.devRef .tc main_v25) = (norm (src (m ((c : Thread nD τ).loc main_arg1))) (dst (m ((c : Thread nD τ).loc main_arg1)))) := s0_v25 (W0 m ρ c)
theorem W1_v26 : W1 m ρ c (Proc.devRef .tc main_v26) = (selfScale (dst (m ((c : Thread nD τ).loc main_arg1)))) := s0_v26 (W0 m ρ c)
theorem W1_arg0 : W1 m ρ c (Proc.devRef .tc main_arg0) = (m ((c : Thread nD τ).loc main_arg0)) := s0_arg0 (W0 m ρ c)
theorem W1_arg2 : W1 m ρ c (Proc.devRef .tc main_arg2) = (m ((c : Thread nD τ).loc main_arg2)) := s0_arg2 (W0 m ρ c)
theorem W1_arg3 : W1 m ρ c (Proc.devRef .tc main_arg3) = (m ((c : Thread nD τ).loc main_arg3)) := s0_arg3 (W0 m ρ c)
theorem W1_arg4 : W1 m ρ c (Proc.devRef .tc main_arg4) = (m ((c : Thread nD τ).loc main_arg4)) := s0_arg4 (W0 m ρ c)
theorem W1_arg5 : W1 m ρ c (Proc.devRef .tc main_arg5) = (m ((c : Thread nD τ).loc main_arg5)) := s0_arg5 (W0 m ρ c)
theorem W1_arg6 : W1 m ρ c (Proc.devRef .tc main_arg6) = (m ((c : Thread nD τ).loc main_arg6)) := s0_arg6 (W0 m ρ c)
theorem W1_arg7 : W1 m ρ c (Proc.devRef .tc main_arg7) = (m ((c : Thread nD τ).loc main_arg7)) := s0_arg7 (W0 m ρ c)
theorem W1_arg8 : W1 m ρ c (Proc.devRef .tc main_arg8) = (m ((c : Thread nD τ).loc main_arg8)) := s0_arg8 (W0 m ρ c)

/-! ## After the first region -/

theorem W2_v1 : W2 m ρ c (Proc.devRef .tc main_v1) = (src (m ((c : Thread nD τ).loc main_arg1))) :=
  (W2_of_ne m ρ c main_v1 (by decide)).trans (W1_v1 m ρ c)
theorem W2_v3 : W2 m ρ c (Proc.devRef .tc main_v3) = (dst (m ((c : Thread nD τ).loc main_arg1))) :=
  (W2_of_ne m ρ c main_v3 (by decide)).trans (W1_v3 m ρ c)
theorem W2_v25 : W2 m ρ c (Proc.devRef .tc main_v25) = (norm (src (m ((c : Thread nD τ).loc main_arg1))) (dst (m ((c : Thread nD τ).loc main_arg1)))) :=
  (W2_of_ne m ρ c main_v25 (by decide)).trans (W1_v25 m ρ c)
theorem W2_v26 : W2 m ρ c (Proc.devRef .tc main_v26) = (selfScale (dst (m ((c : Thread nD τ).loc main_arg1)))) :=
  (W2_of_ne m ρ c main_v26 (by decide)).trans (W1_v26 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_v27 : W2 m ρ c (Proc.devRef .tc main_v27) = matProd (m ((c : Thread nD τ).loc main_arg0)) (m ((c : Thread nD τ).loc main_arg2)) := by
  refine (W2_arr m ρ c 2).trans ((region0_array (V1 m ρ) c).trans ?_)
  rw [show V1 m ρ c (Pipeline.arrRef spec0 0) = (m ((c : Thread nD τ).loc main_arg0)) from W1_arg0 m ρ c,
    show V1 m ρ c (Pipeline.arrRef spec0 1) = (m ((c : Thread nD τ).loc main_arg2)) from W1_arg2 m ρ c]

/-! ## After the second stretch -/

theorem W3_v47 : W3 m ρ c (Proc.devRef .tc main_v47) = (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (m ((c : Thread nD τ).loc main_arg0)) (m ((c : Thread nD τ).loc main_arg2))) (m ((c : Thread nD τ).loc main_arg3))) := by
  refine (s1_v47 (W2 m ρ c)).trans ?_
  rw [W2_v1, W2_v3, W2_v25, W2_v26, W2_v27, W2_arg3]
theorem W3_v48 : W3 m ρ c (Proc.devRef .tc main_v48) = wcomb (m ((c : Thread nD τ).loc main_arg4)) (m ((c : Thread nD τ).loc main_arg6)) := by
  refine (s1_v48 (W2 m ρ c)).trans ?_
  rw [W2_arg4, W2_arg6]
theorem W3_v1 : W3 m ρ c (Proc.devRef .tc main_v1) = (src (m ((c : Thread nD τ).loc main_arg1))) :=
  (s1_v1 (W2 m ρ c)).trans (W2_v1 m ρ c)
theorem W3_v3 : W3 m ρ c (Proc.devRef .tc main_v3) = (dst (m ((c : Thread nD τ).loc main_arg1))) :=
  (s1_v3 (W2 m ρ c)).trans (W2_v3 m ρ c)
theorem W3_v25 : W3 m ρ c (Proc.devRef .tc main_v25) = (norm (src (m ((c : Thread nD τ).loc main_arg1))) (dst (m ((c : Thread nD τ).loc main_arg1)))) :=
  (s1_v25 (W2 m ρ c)).trans (W2_v25 m ρ c)
theorem W3_v26 : W3 m ρ c (Proc.devRef .tc main_v26) = (selfScale (dst (m ((c : Thread nD τ).loc main_arg1)))) :=
  (s1_v26 (W2 m ρ c)).trans (W2_v26 m ρ c)
theorem W3_arg5 : W3 m ρ c (Proc.devRef .tc main_arg5) = (m ((c : Thread nD τ).loc main_arg5)) :=
  (s1_arg5 (W2 m ρ c)).trans (W2_arg5 m ρ c)
theorem W3_arg7 : W3 m ρ c (Proc.devRef .tc main_arg7) = (m ((c : Thread nD τ).loc main_arg7)) :=
  (s1_arg7 (W2 m ρ c)).trans (W2_arg7 m ρ c)
theorem W3_arg8 : W3 m ρ c (Proc.devRef .tc main_arg8) = (m ((c : Thread nD τ).loc main_arg8)) :=
  (s1_arg8 (W2 m ρ c)).trans (W2_arg8 m ρ c)

/-! ## After the second region -/

theorem W4_v1 : W4 m ρ c (Proc.devRef .tc main_v1) = (src (m ((c : Thread nD τ).loc main_arg1))) :=
  (W4_of_ne m ρ c main_v1 (by decide)).trans (W3_v1 m ρ c)
theorem W4_v3 : W4 m ρ c (Proc.devRef .tc main_v3) = (dst (m ((c : Thread nD τ).loc main_arg1))) :=
  (W4_of_ne m ρ c main_v3 (by decide)).trans (W3_v3 m ρ c)
theorem W4_v25 : W4 m ρ c (Proc.devRef .tc main_v25) = (norm (src (m ((c : Thread nD τ).loc main_arg1))) (dst (m ((c : Thread nD τ).loc main_arg1)))) :=
  (W4_of_ne m ρ c main_v25 (by decide)).trans (W3_v25 m ρ c)
theorem W4_v26 : W4 m ρ c (Proc.devRef .tc main_v26) = (selfScale (dst (m ((c : Thread nD τ).loc main_arg1)))) :=
  (W4_of_ne m ρ c main_v26 (by decide)).trans (W3_v26 m ρ c)
theorem W4_arg5 : W4 m ρ c (Proc.devRef .tc main_arg5) = (m ((c : Thread nD τ).loc main_arg5)) :=
  (W4_of_ne m ρ c main_arg5 (by decide)).trans (W3_arg5 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)
theorem W4_v49 : W4 m ρ c (Proc.devRef .tc main_v49) = matProd (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (m ((c : Thread nD τ).loc main_arg0)) (m ((c : Thread nD τ).loc main_arg2))) (m ((c : Thread nD τ).loc main_arg3))) (wcomb (m ((c : Thread nD τ).loc main_arg4)) (m ((c : Thread nD τ).loc main_arg6))) := by
  refine (W4_arr m ρ c 2).trans ((region1_array (V3 m ρ) c).trans ?_)
  rw [show V3 m ρ c (Pipeline.arrRef spec1 0) = (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (m ((c : Thread nD τ).loc main_arg0)) (m ((c : Thread nD τ).loc main_arg2))) (m ((c : Thread nD τ).loc main_arg3))) from W3_v47 m ρ c,
    show V3 m ρ c (Pipeline.arrRef spec1 1) = wcomb (m ((c : Thread nD τ).loc main_arg4)) (m ((c : Thread nD τ).loc main_arg6)) from W3_v48 m ρ c]

/-! ## After the third stretch -/

theorem W5_v71 : W5 m ρ c (Proc.devRef .tc main_v71) = headMu (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (m ((c : Thread nD τ).loc main_arg0)) (m ((c : Thread nD τ).loc main_arg2))) (m ((c : Thread nD τ).loc main_arg3))) (wcomb (m ((c : Thread nD τ).loc main_arg4)) (m ((c : Thread nD τ).loc main_arg6)))) (bcomb (m ((c : Thread nD τ).loc main_arg5)) (m ((c : Thread nD τ).loc main_arg7)))) := by
  refine (s2_v71 (W4 m ρ c)).trans ?_
  rw [W4_v1, W4_v3, W4_v25, W4_v26, W4_v49, W4_arg5, W4_arg7]
theorem W5_v72 : W5 m ρ c (Proc.devRef .tc main_v72) = headLs (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (m ((c : Thread nD τ).loc main_arg0)) (m ((c : Thread nD τ).loc main_arg2))) (m ((c : Thread nD τ).loc main_arg3))) (wcomb (m ((c : Thread nD τ).loc main_arg4)) (m ((c : Thread nD τ).loc main_arg6)))) (bcomb (m ((c : Thread nD τ).loc main_arg5)) (m ((c : Thread nD τ).loc main_arg7)))) := by
  refine (s2_v72 (W4 m ρ c)).trans ?_
  rw [W4_v1, W4_v3, W4_v25, W4_v26, W4_v49, W4_arg5, W4_arg7]
theorem W5_arg8 : W5 m ρ c (Proc.devRef .tc main_arg8) = (m ((c : Thread nD τ).loc main_arg8)) :=
  (s2_arg8 (W4 m ρ c)).trans (W4_arg8 m ρ c)

/-! ## After the last region: the results -/

/-- The mean head. -/
theorem W6_v71 : W6 m ρ c (Proc.devRef .tc main_v71) = headMu (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (m ((c : Thread nD τ).loc main_arg0)) (m ((c : Thread nD τ).loc main_arg2))) (m ((c : Thread nD τ).loc main_arg3))) (wcomb (m ((c : Thread nD τ).loc main_arg4)) (m ((c : Thread nD τ).loc main_arg6)))) (bcomb (m ((c : Thread nD τ).loc main_arg5)) (m ((c : Thread nD τ).loc main_arg7)))) :=
  ((W6_arr m ρ c 0).trans (((dat2 (V5 m ρ) c).arrAt_in 0 rfl _).trans (A_eq2 (V5 m ρ) c 0))).trans (W5_v71 m ρ c)
/-- The log-deviation head. -/
theorem W6_v72 : W6 m ρ c (Proc.devRef .tc main_v72) = headLs (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (m ((c : Thread nD τ).loc main_arg0)) (m ((c : Thread nD τ).loc main_arg2))) (m ((c : Thread nD τ).loc main_arg3))) (wcomb (m ((c : Thread nD τ).loc main_arg4)) (m ((c : Thread nD τ).loc main_arg6)))) (bcomb (m ((c : Thread nD τ).loc main_arg5)) (m ((c : Thread nD τ).loc main_arg7)))) :=
  ((W6_arr m ρ c 1).trans (((dat2 (V5 m ρ) c).arrAt_in 1 rfl _).trans (A_eq2 (V5 m ρ) c 1))).trans (W5_v72 m ρ c)
/-- The sample. -/
theorem W6_v73 : W6 m ρ c (Proc.devRef .tc main_v73) = combine (headMu (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (m ((c : Thread nD τ).loc main_arg0)) (m ((c : Thread nD τ).loc main_arg2))) (m ((c : Thread nD τ).loc main_arg3))) (wcomb (m ((c : Thread nD τ).loc main_arg4)) (m ((c : Thread nD τ).loc main_arg6)))) (bcomb (m ((c : Thread nD τ).loc main_arg5)) (m ((c : Thread nD τ).loc main_arg7))))) (headLs (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (m ((c : Thread nD τ).loc main_arg0)) (m ((c : Thread nD τ).loc main_arg2))) (m ((c : Thread nD τ).loc main_arg3))) (wcomb (m ((c : Thread nD τ).loc main_arg4)) (m ((c : Thread nD τ).loc main_arg6)))) (bcomb (m ((c : Thread nD τ).loc main_arg5)) (m ((c : Thread nD τ).loc main_arg7))))) (m ((c : Thread nD τ).loc main_arg8)) := by
  refine (W6_arr m ρ c 3).trans ((region2_array (V5 m ρ) c).trans ?_)
  rw [show V5 m ρ c (Pipeline.arrRef spec2 0) = headMu (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (m ((c : Thread nD τ).loc main_arg0)) (m ((c : Thread nD τ).loc main_arg2))) (m ((c : Thread nD τ).loc main_arg3))) (wcomb (m ((c : Thread nD τ).loc main_arg4)) (m ((c : Thread nD τ).loc main_arg6)))) (bcomb (m ((c : Thread nD τ).loc main_arg5)) (m ((c : Thread nD τ).loc main_arg7)))) from W5_v71 m ρ c,
    show V5 m ρ c (Pipeline.arrRef spec2 1) = headLs (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (layer (src (m ((c : Thread nD τ).loc main_arg1))) (dst (m ((c : Thread nD τ).loc main_arg1))) (norm (src (m ((c : Thread nD τ).loc main_arg1))) (dst (m ((c : Thread nD τ).loc main_arg1)))) (selfScale (dst (m ((c : Thread nD τ).loc main_arg1)))) (matProd (m ((c : Thread nD τ).loc main_arg0)) (m ((c : Thread nD τ).loc main_arg2))) (m ((c : Thread nD τ).loc main_arg3))) (wcomb (m ((c : Thread nD τ).loc main_arg4)) (m ((c : Thread nD τ).loc main_arg6)))) (bcomb (m ((c : Thread nD τ).loc main_arg5)) (m ((c : Thread nD τ).loc main_arg7)))) from W5_v72 m ρ c,
    show V5 m ρ c (Pipeline.arrRef spec2 2) = (m ((c : Thread nD τ).loc main_arg8)) from W5_arg8 m ρ c]

end Cert.KernelIdeal.KernelValue

end
-- ==== Proof.RefTerms.lean ====
/-
  The idealized reference's arithmetic, named, in the same words as the kernel's: the edge list's
  sources and targets, `dis = deg^(-1/2)`, the edges' normalisation, the self-loop weight, and one
  graph convolution `layerC H b` of a projected feature matrix with `C` columns (`C = 128` for the
  hidden layer, `C = 64` for each of the two heads):
      row `n` = Σ_{e : target e = n} norm e · H[source e]  +  selfScale n · H[n]  +  b.
  The reference projects with a plain matrix product (`proj128`, `proj64`), computes the hidden
  layer once and each head from it, and ends with `z = mu + eps · exp(logstd)`.
-/
import proofs.«142419_j83915071030119_1_alg».proof.Proof.Gen.ReferenceIdeal

set_option maxRecDepth 16384

noncomputable section

namespace Cert.ReferenceIdeal.Terms

open Cert.ReferenceIdeal Idealize.ShloMosaic
open Facts₀ Facts

variable {F : FTy → Type} [FloatOps F]

/-- Row 0 of the edge list, flat: the sources. -/
def src (a1 : (⟨S2x1600000, .i32⟩ : BufTy).Contents (Elt F)) : (⟨S1600000, .i32⟩ : BufTy).Contents (Elt F) :=
  shapeCast S1600000 (extractStridedSlice S1x1600000 ![0, 0] a1 slices_S2x1600000_S1x1600000_0_0) shapeCasts_S1x1600000_S1600000

/-- Row 1 of the edge list, flat: the targets. -/
def dst (a1 : (⟨S2x1600000, .i32⟩ : BufTy).Contents (Elt F)) : (⟨S1600000, .i32⟩ : BufTy).Contents (Elt F) :=
  shapeCast S1600000 (extractStridedSlice S1x1600000 ![1, 0] a1 slices_S2x1600000_S1x1600000_1_0) shapeCasts_S1x1600000_S1600000

/-- An index vector as a one-column matrix, as given. -/
def rawCol (v : (⟨S1600000, .i32⟩ : BufTy).Contents (Elt F)) : (⟨S1600000x1, .i32⟩ : BufTy).Contents (Elt F) :=
  broadcastInDim S1600000x1 ![0] bcast_S1600000_S1600000x1_0 v

/-- An index vector as a one-column matrix, a negative index moved up by `N` first. -/
def wrapCol (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- `deg^(-1/2)`, the degree counting each edge at its target plus the self loop. -/
def dis (d : (⟨S1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32)) (rawCol d)
      (broadcastInDim S1600000 ![] bcast_S_S1600000 (constant S_ .f32 0x3F800000#32)))
    (broadcastInDim S100000 ![] bcast_S_S100000 (constant S_ .f32 0x3F800000#32)))

/-- The symmetric normalisation of each edge. -/
def norm (s d : (⟨S1600000, .i32⟩ : BufTy).Contents (Elt F)) : (⟨S1600000, .f32⟩ : BufTy).Contents (Elt F) :=
  mulf (Host.gather gather_S100000_S1600000x1_S1600000_n_0_n_n_0_1_1 (dis d) (wrapCol s))
    (Host.gather gather_S100000_S1600000x1_S1600000_n_0_n_n_0_1_1 (dis d) (wrapCol d))

/-- The self loop's weight at each node. -/
def selfScale (d : (⟨S1600000, .i32⟩ : BufTy).Contents (Elt F)) : (⟨S100000, .f32⟩ : BufTy).Contents (Elt F) :=
  mulf (dis d) (dis d)

/-- One graph convolution of a projected 128-column feature matrix. -/
def layer128 (s d : (⟨S1600000, .i32⟩ : BufTy).Contents (Elt F)) (nrm : (⟨S1600000, .f32⟩ : BufTy).Contents (Elt F))
    (ss : (⟨S100000, .f32⟩ : BufTy).Contents (Elt F)) (H : (⟨S100000x128, .f32⟩ : BufTy).Contents (Elt F))
    (b : (⟨S128, .f32⟩ : BufTy).Contents (Elt F)) : (⟨S100000x128, .f32⟩ : BufTy).Contents (Elt F) :=
  addf (addf
    (Host.scatterAdd scatter_S100000x128_S1600000x1_S1600000x128_1_0_0_1
      (broadcastInDim S100000x128 ![] bcast_S_S100000x128 (constant S_ .f32 0x00000000#32)) (rawCol d)
      (mulf (Host.gather gather_S100000x128_S1600000x1_S1600000x128_1_0_n_n_0_1_1128 H (wrapCol s))
        (broadcastInDim S1600000x128 ![0, 1] bcast_S1600000x1_S1600000x128_0_1
          (broadcastInDim S1600000x1 ![0] bcast_S1600000_S1600000x1_0 nrm))))
    (mulf H (broadcastInDim S100000x128 ![0, 1] bcast_S100000x1_S100000x128_0_1
      (broadcastInDim S100000x1 ![0] bcast_S100000_S100000x1_0 ss))))
    (broadcastInDim S100000x128 ![0, 1] bcast_S1x128_S100000x128_0_1 (broadcastInDim S1x128 ![1] bcast_S128_S1x128_1 b))

/-- One graph convolution of a projected 64-column feature matrix. -/
def layer64 (s d : (⟨S1600000, .i32⟩ : BufTy).Contents (Elt F)) (nrm : (⟨S1600000, .f32⟩ : BufTy).Contents (Elt F))
    (ss : (⟨S100000, .f32⟩ : BufTy).Contents (Elt F)) (H : (⟨S100000x64, .f32⟩ : BufTy).Contents (Elt F))
    (b : (⟨S64, .f32⟩ : BufTy).Contents (Elt F)) : (⟨S100000x64, .f32⟩ : BufTy).Contents (Elt F) :=
  addf (addf
    (Host.scatterAdd scatter_S100000x64_S1600000x1_S1600000x64_1_0_0_1
      (broadcastInDim S100000x64 ![] bcast_S_S100000x64 (constant S_ .f32 0x00000000#32)) (rawCol d)
      (mulf (Host.gather gather_S100000x64_S1600000x1_S1600000x64_1_0_n_n_0_1_164 H (wrapCol s))
        (broadcastInDim S1600000x64 ![0, 1] bcast_S1600000x1_S1600000x64_0_1
          (broadcastInDim S1600000x1 ![0] bcast_S1600000_S1600000x1_0 nrm))))
    (mulf H (broadcastInDim S100000x64 ![0, 1] bcast_S100000x1_S100000x64_0_1
      (broadcastInDim S100000x1 ![0] bcast_S100000_S100000x1_0 ss))))
    (broadcastInDim S100000x64 ![0, 1] bcast_S1x64_S100000x64_0_1 (broadcastInDim S1x64 ![1] bcast_S64_S1x64_1 b))

/-- The input features projected to the hidden width. -/
def proj128 (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- The hidden features projected to one head's width. -/
def proj64 (h : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none h w

/-- The hidden layer. -/
def hidden (a1 : (⟨S2x1600000, .i32⟩ : BufTy).Contents (Elt F)) (x : (⟨S100000x128, .f32⟩ : BufTy).Contents (Elt F))
    (w1 : (⟨S128x128, .f32⟩ : BufTy).Contents (Elt F)) (b1 : (⟨S128, .f32⟩ : BufTy).Contents (Elt F)) :
    (⟨S100000x128, .f32⟩ : BufTy).Contents (Elt F) :=
  layer128 (src a1) (dst a1) (norm (src a1) (dst a1)) (selfScale (dst a1)) (proj128 x w1) b1

/-- One head: a graph convolution of the hidden layer projected by that head's weights. -/
def head (a1 : (⟨S2x1600000, .i32⟩ : BufTy).Contents (Elt F)) (h : (⟨S100000x128, .f32⟩ : BufTy).Contents (Elt F))
    (w : (⟨S128x64, .f32⟩ : BufTy).Contents (Elt F)) (b : (⟨S64, .f32⟩ : BufTy).Contents (Elt F)) :
    (⟨S100000x64, .f32⟩ : BufTy).Contents (Elt F) :=
  layer64 (src a1) (dst a1) (norm (src a1) (dst a1)) (selfScale (dst a1)) (proj64 h w) b

/-- The sample: the mean head plus the noise scaled by the exponential of the log-deviation head. -/
def sample (mu ls eps : (⟨S100000x64, .f32⟩ : BufTy).Contents (Elt F)) : (⟨S100000x64, .f32⟩ : BufTy).Contents (Elt F) :=
  addf mu (mulf eps (Host.exp ls))

end Cert.ReferenceIdeal.Terms

end
-- ==== Proof.RefValue.lean ====
/-
  The reference's three results as the named arithmetic: the mean head and the log-deviation head
  are each one graph convolution of the hidden layer projected by that head's weights, and the sample
  is the mean plus the noise scaled by the exponential of the log-deviation. The run's composed terms
  are these by unfolding the names.
-/
import proofs.«142419_j83915071030119_1_alg».proof.Proof.Gen.ReferenceIdeal.Run
import proofs.«142419_j83915071030119_1_alg».proof.Proof.RefTerms

set_option maxRecDepth 16384

noncomputable section

namespace Cert.ReferenceIdeal.RefValue

open Cert.ReferenceIdeal Cert.ReferenceIdeal.Value Cert.ReferenceIdeal.Terms
open Idealize.ShloMosaic Idealize.ShloMosaic.TcCoe Idealize.SL.Sem

variable {F : FTy → Type} [FloatOps F] (m : (ℓ : Loc nD τ sig) → Buf (Elt F) ℓ) (c : Dev nD)

/-- The mean head. -/
theorem res_mu : res_main_v84 m c
    = head (m ((c.tc : Thread nD τ).loc main_arg1))
        (Terms.hidden (m ((c.tc : Thread nD τ).loc main_arg1)) (m ((c.tc : Thread nD τ).loc main_arg0))
          (m ((c.tc : Thread nD τ).loc main_arg2)) (m ((c.tc : Thread nD τ).loc main_arg3)))
        (m ((c.tc : Thread nD τ).loc main_arg4)) (m ((c.tc : Thread nD τ).loc main_arg5)) := by
  unfold res_main_v84 head Terms.hidden layer64 layer128 proj64 proj128 norm selfScale dis rawCol wrapCol src dst
  rfl

/-- The log-deviation head. -/
theorem res_ls : res_main_v121 m c
    = head (m ((c.tc : Thread nD τ).loc main_arg1))
        (Terms.hidden (m ((c.tc : Thread nD τ).loc main_arg1)) (m ((c.tc : Thread nD τ).loc main_arg0))
          (m ((c.tc : Thread nD τ).loc main_arg2)) (m ((c.tc : Thread nD τ).loc main_arg3)))
        (m ((c.tc : Thread nD τ).loc main_arg6)) (m ((c.tc : Thread nD τ).loc main_arg7)) := by
  unfold res_main_v121 head Terms.hidden layer64 layer128 proj64 proj128 norm selfScale dis rawCol wrapCol src dst
  rfl

/-- The sample. -/
theorem res_z : res_main_v124 m c
    = sample (res_main_v84 m c) (res_main_v121 m c) (m ((c.tc : Thread nD τ).loc main_arg8)) := by
  unfold res_main_v124 res_main_v84 res_main_v121 sample
  rfl

end Cert.ReferenceIdeal.RefValue

end
-- ==== Proof.LibAggColumns.lean ====
/-
  ROW AGGREGATION COLUMN BY COLUMN.

  A scatter-add of rows (a segment sum: row e of an E×C array of updates is added into the row of an N×C operand
  that a per-row integer index names) and a gather of rows (row e of the E×C result is the row of an N×C operand that a
  per-row integer index names) both act on every column separately. This file reads the two host operations at one
  element, at the exact (extended-real) instance:

    • the scatter-add at (r, q) is the operand at (r, q) plus the sum, over the update rows e whose index is r, of the
      update at (e, q): the guard of the sum mentions the index array, e and r only, never the column q or the number
      of columns;
    • the gather at (e, q) is the operand at (rowAt e, q), where rowAt e is the index of row e read as a signed
      integer and clamped into [0, N − 1]: again independent of the column and of the number of columns.

  The consequence, the column law: one graph-aggregation layer — scatter-add of (gathered rows times a per-edge
  factor), plus the node features times a per-node factor, plus a bias — computed on C columns and then read at column
  q' + off is the same layer computed on C' columns read at column q', whenever every array of the second computation is
  the window of columns [off, off + C') of the corresponding array of the first.
-/
import Idealize.ShloMosaic.Lib.ValueIdx

noncomputable section

open scoped BigOperators

namespace Cert.Lib.AggColumns

open Idealize.ShloMosaic Idealize.ShloMosaic.ValueIdx

/-! ## A scatter's result index, in general -/

/-- An update index lands at operand index i exactly when, on every axis, the signed start plus the window coordinate
    is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    by_cases hh : ∀ a, 0 ≤ d.start j idx a + d.window j a ∧ d.start j idx a + d.window j a < s.size a
    · rw [dif_pos hh] at h
      have hv := congrArg Fin.val (congrFun (Option.some.inj h) a)
      simp only at hv
      have := hh a
      omega
    · rw [dif_neg hh] at h
      exact absurd h (by simp)
  · intro h
    have hh : ∀ a, 0 ≤ d.start j idx a + d.window j a ∧ d.start j idx a + d.window j a < s.size a := by
      intro a
      have := h a
      have := (i a).isLt
      omega
    rw [dif_pos hh]
    congr 1
    funext a
    apply Fin.ext
    have := h a
    simp only
    omega

/-! ## The scatter-add of rows -/

/-- The dimension numbers of a scatter of rows: operand N×C, one scalar index per update row (indices E×1), updates
    E×C; the updates' axis 1 is the window axis, the operand's axis 0 is the inserted one and the one the index
    names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C : Nat} (wf : ScatterDims.WF ⟨2, ![N, C]⟩ ⟨2, ![E, 1]⟩ ⟨2, ![E, C]⟩ [1] [0] [0] 1)

/-- On the row axis the start is the update row's index, read signed. -/
theorem rowScatter_start0 (idx : IVec ⟨2, ![E, 1]⟩ 32) (e : Fin E) (b : Fin C) :
    (rowScatterDims N E C wf).start (ix2 e b) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e b) ⟨List.idxOf (0 : Fin 2) (rowScatterDims N E C wf).scatterDimsToOperandDims,
      List.idxOf_lt_length_iff.2 (List.mem_singleton.mpr rfl)⟩ = ix2 e 0 := by
    funext a; refine Fin.ext ?_
    match a with
    | ⟨0, _⟩ => rfl
    | ⟨1, _⟩ => rfl
  rw [hsi]

/-- On the column axis the start is zero. -/
theorem rowScatter_start1 (idx : IVec ⟨2, ![E, 1]⟩ 32) (j : (⟨2, ![E, C]⟩ : Shape).Idx) :
    (rowScatterDims N E C wf).start j idx 1 = 0 := by
  unfold ScatterDims.start
  rw [dif_neg (show (1 : Fin 2) ∉ ([0] : List (Fin 2)) by decide)]

/-- On the row axis there is no window coordinate. -/
theorem rowScatter_window0 (j : (⟨2, ![E, C]⟩ : Shape).Idx) :
    (rowScatterDims N E C wf).window j 0 = 0 := by
  unfold ScatterDims.window
  have h : (0 : Fin 2) ∉ (rowScatterDims N E C wf).sKept :=
    (by decide : (0 : Fin 2) ∉ (List.finRange 2).filter (· ∉ ([0] : List (Fin 2))))
  rw [dif_neg h]

/-- On the column axis the window coordinate is the update's column. -/
theorem rowScatter_window1 (e : Fin E) (b : Fin C) :
    (rowScatterDims N E C wf).window (ix2 e b) 1 = b.val := by
  unfold ScatterDims.window
  have h : (1 : Fin 2) ∈ (rowScatterDims N E C wf).sKept :=
    (by decide : (1 : Fin 2) ∈ (List.finRange 2).filter (· ∉ ([0] : List (Fin 2))))
  rw [dif_pos h]
  rfl

/-- An update at (e, b) lands at (r, q) exactly when row e's index, read signed, is r and the columns agree. -/
theorem rowScatter_resultIdx?_iff (idx : IVec ⟨2, ![E, 1]⟩ 32) (e : Fin E) (b : Fin C) (r : Fin N) (q : Fin C) :
    (rowScatterDims N E C wf).resultIdx? (ix2 e b) idx = some (ix2 r q) ↔
      ((idx (ix2 e 0)).toInt = (r.val : Int) ∧ b = q) := by
  rw [resultIdx?_eq_some_iff]
  constructor
  · intro h
    have h0 := h 0
    have h1 := h 1
    rw [rowScatter_start0, rowScatter_window0] at h0
    rw [rowScatter_start1, rowScatter_window1] at h1
    have h0' : (idx (ix2 e 0)).toInt + ((0 : Nat) : Int) = (r.val : Int) := h0
    have h1' : (0 : Int) + (b.val : Int) = (q.val : Int) := h1
    exact ⟨by omega, Fin.ext (by omega)⟩
  · rintro ⟨h0, rfl⟩ a
    match a with
    | ⟨0, _⟩ =>
      have := rowScatter_start0 wf idx e b
      have := rowScatter_window0 wf (ix2 e b)
      show (rowScatterDims N E C wf).start (ix2 e b) idx 0 + ((rowScatterDims N E C wf).window (ix2 e b) 0 : Int) = (r.val : Int)
      omega
    | ⟨1, _⟩ =>
      have := rowScatter_start1 wf idx (ix2 e b)
      have := rowScatter_window1 wf e b
      show (rowScatterDims N E C wf).start (ix2 e b) idx 1 + ((rowScatterDims N E C wf).window (ix2 e b) 1 : Int) = (b.val : Int)
      omega

/-- THE SCATTER-ADD OF ROWS AT (r, q): the operand there plus the updates of column q in the rows whose index is r. -/
theorem rowScatter_scatterAdd_apply {φ : FTy} (x : FVec Ideal ⟨2, ![N, C]⟩ φ) (idx : IVec ⟨2, ![E, 1]⟩ 32)
    (upd : FVec Ideal ⟨2, ![E, C]⟩ φ) (r : Fin N) (q : Fin C) :
    Host.scatterAdd (F := Ideal) (rowScatterDims N E C wf) x idx upd (ix2 r q)
      = x (ix2 r q) + ∑ e : Fin E, if (idx (ix2 e 0)).toInt = (r.val : Int) then upd (ix2 e q) else 0 := by
  unfold Host.scatterAdd
  rw [Ideal.hostScatterAdd_def]
  unfold Ideal.hostScatterAdd
  congr 1
  rw [Finset.sum_filter, sum_idx2]
  refine Finset.sum_congr rfl fun e _ => ?_
  simp only [rowScatter_resultIdx?_iff]
  by_cases h : (idx (ix2 e 0)).toInt = (r.val : Int)
  · simp only [h, true_and, if_true]
    rw [Finset.sum_ite_eq' Finset.univ q (fun b => upd (ix2 e b))]
    simp
  · simp only [h, false_and, if_false]
    exact Finset.sum_const_zero

end RowScatter

/-- THE SCATTER-ADD OF ROWS AT (r, q), for any dimension numbers whose lists are those of a scatter of rows: the
    operand at (r, q) plus the updates of column q in the rows whose index, read signed, is r. The guard of the sum does
    not mention the column or the number of columns. -/
theorem scatterAdd_rows_apply {N E C : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ 32)
    (upd : FVec Ideal ⟨2, ![E, C]⟩ φ) (r : Fin N) (q : Fin C) :
    Host.scatterAdd (F := Ideal) d x idx upd (ix2 r q)
      = x (ix2 r q) + ∑ e : Fin E, if (idx (ix2 e 0)).toInt = (r.val : Int) then upd (ix2 e q) else 0 := by
  obtain ⟨uw, iw, sd, iv, wf⟩ := d
  dsimp only at huw hiw hsd hiv
  subst huw hiw hsd hiv
  exact rowScatter_scatterAdd_apply wf x idx upd r q

/-! ## The gather of rows -/

/-- The operand row that an index array names for result row e: the index of row e read as a signed integer and
    clamped into [0, N − 1]. It depends on the index array, the row and the number of operand rows only. -/
def rowAt {N E : Nat} (hN : 0 < N) (idx : IVec ⟨2, ![E, 1]⟩ 32) (e : Fin E) : Fin N :=
  ⟨min (idx (ix2 e 0)).toInt.toNat (N - 1), by omega⟩

/-- The dimension numbers of a gather of rows: operand N×C, one scalar start index per result row (indices E×1),
    result E×C; the operand's axis 0 is collapsed and is the one the index names, the result's axis 1 is the offset
    axis, and a slice is one whole row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section RowGather
variable {N E C : Nat} (wf : GatherDims.WF ⟨2, ![N, C]⟩ ⟨2, ![E, 1]⟩ ⟨2, ![E, C]⟩ [1] [0] [] [0] [] 1 ![1, C])

/-- On the row axis the operand index is the clamped start: no batching and no offset coordinate there. -/
theorem rowGather_operandIdx0 (hN : 0 < N) (idx : IVec ⟨2, ![E, 1]⟩ 32) (e : Fin E) (q : Fin C) :
    ((rowGatherDims N E C wf).operandIdx (ix2 e q) idx 0).val = (rowAt hN idx e).val := by
  show (rowGatherDims N E C wf).start (ix2 e q) idx 0 + (rowGatherDims N E C wf).batchCoord (ix2 e q) 0
    + (rowGatherDims N E C wf).offCoord (ix2 e q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e q) ⟨List.idxOf (0 : Fin 2) (rowGatherDims N E C wf).startIndexMap,
      List.idxOf_lt_length_iff.2 (List.mem_singleton.mpr rfl)⟩ = ix2 e 0 := by
    funext a; refine Fin.ext ?_
    match a with
    | ⟨0, _⟩ => rfl
    | ⟨1, _⟩ => rfl
  rw [hsi]
  rfl

/-- On the column axis the operand index is the result's column: start zero, no batching, the offset coordinate. -/
theorem rowGather_operandIdx1 (idx : IVec ⟨2, ![E, 1]⟩ 32) (e : Fin E) (q : Fin C) :
    ((rowGatherDims N E C wf).operandIdx (ix2 e q) idx 1).val = q.val := by
  show (rowGatherDims N E C wf).start (ix2 e q) idx 1 + (rowGatherDims N E C wf).batchCoord (ix2 e q) 1
    + (rowGatherDims N E C wf).offCoord (ix2 e q) 1 = _
  have hs : (rowGatherDims N E C wf).start (ix2 e q) idx 1 = 0 := by
    unfold GatherDims.start
    rw [dif_neg (show (1 : Fin 2) ∉ ([0] : List (Fin 2)) by decide)]
  have ho : (rowGatherDims N E C wf).offCoord (ix2 e q) 1 = q.val := by
    unfold GatherDims.offCoord
    have h : (1 : Fin 2) ∈ (rowGatherDims N E C wf).sKept :=
      (by decide : (1 : Fin 2) ∈ (List.finRange 2).filter (· ∉ (([0] : List (Fin 2)) ++ [])))
    rw [dif_pos h]
    rfl
  rw [GatherDims.batchCoord_eq_zero _ _ _ List.not_mem_nil, hs, ho]
  omega

/-- The gather of rows at (e, q): the operand at (rowAt e, q). -/
theorem rowGather_apply {α : Type} (hN : 0 < N) (x : (⟨2, ![N, C]⟩ : Shape).Idx → α) (idx : IVec ⟨2, ![E, 1]⟩ 32)
    (e : Fin E) (q : Fin C) :
    Host.gather (rowGatherDims N E C wf) x idx (ix2 e q) = x (ix2 (rowAt hN idx e) q) := by
  unfold Host.gather
  congr 1
  funext a
  refine Fin.ext ?_
  match a with
  | ⟨0, _⟩ => exact rowGather_operandIdx0 wf hN idx e q
  | ⟨1, _⟩ => exact rowGather_operandIdx1 wf idx e q

end RowGather

/-- THE GATHER OF ROWS AT (e, q), for any dimension numbers whose lists are those of a gather of rows: the operand at
    (rowAt e, q), the row being the index of row e read signed and clamped into [0, N − 1]. -/
theorem gather_rows_apply {N E C : Nat} {α : Type} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![E, 1]⟩ 32)
    (e : Fin E) (q : Fin C) :
    Host.gather d x idx (ix2 e q) = x (ix2 (rowAt hN idx e) q) := by
  obtain ⟨od, cd, ob, sb, sm, iv, ss, wf⟩ := d
  dsimp only at hod hcd hob hsb hsm hiv hss
  subst hod hcd hob hsb hsm hiv hss
  exact rowGather_apply wf hN x idx e q

/-! ## The column law -/

/-- The lists of a scatter of rows (see rowScatterDims). -/
def IsRowScatter {N E C : Nat} (d : ScatterDims ⟨2, ![N, C]⟩ ⟨2, ![E, 1]⟩ ⟨2, ![E, C]⟩) : Prop :=
  d.updateWindowDims = [1] ∧ d.insertedWindowDims = [0] ∧ d.scatterDimsToOperandDims = [0] ∧ d.indexVectorDim = 1

/-- The lists and slice sizes of a gather of rows (see rowGatherDims). -/
def IsRowGather {N E C : Nat} (d : GatherDims ⟨2, ![N, C]⟩ ⟨2, ![E, 1]⟩ ⟨2, ![E, C]⟩) : Prop :=
  d.offsetDims = [1] ∧ d.collapsedSliceDims = [0] ∧ d.operandBatchingDims = [] ∧ d.startIndicesBatchingDims = [] ∧
    d.startIndexMap = [0] ∧ d.indexVectorDim = 1 ∧ d.sliceSizes = ![1, C]

/-- The scatter-add of rows at (r, q), the lists bundled. -/
theorem IsRowScatter.apply {N E C : Nat} {φ : FTy} {d : ScatterDims ⟨2, ![N, C]⟩ ⟨2, ![E, 1]⟩ ⟨2, ![E, C]⟩}
    (hd : IsRowScatter d) (x : FVec Ideal ⟨2, ![N, C]⟩ φ) (idx : IVec ⟨2, ![E, 1]⟩ 32)
    (upd : FVec Ideal ⟨2, ![E, C]⟩ φ) (r : Fin N) (q : Fin C) :
    Host.scatterAdd (F := Ideal) d x idx upd (ix2 r q)
      = x (ix2 r q) + ∑ e : Fin E, if (idx (ix2 e 0)).toInt = (r.val : Int) then upd (ix2 e q) else 0 :=
  scatterAdd_rows_apply d hd.1 hd.2.1 hd.2.2.1 hd.2.2.2 x idx upd r q

/-- The gather of rows at (e, q), the lists bundled. -/
theorem IsRowGather.apply {N E C : Nat} {α : Type} {d : GatherDims ⟨2, ![N, C]⟩ ⟨2, ![E, 1]⟩ ⟨2, ![E, C]⟩}
    (hd : IsRowGather d) (hN : 0 < N) (x : (⟨2, ![N, C]⟩ : Shape).Idx → α) (idx : IVec ⟨2, ![E, 1]⟩ 32)
    (e : Fin E) (q : Fin C) :
    Host.gather d x idx (ix2 e q) = x (ix2 (rowAt hN idx e) q) :=
  gather_rows_apply hN d hd.1 hd.2.1 hd.2.2.1 hd.2.2.2.1 hd.2.2.2.2.1 hd.2.2.2.2.2.1 hd.2.2.2.2.2.2 x idx e q

/-- The aggregated messages, column by column: the sum over the edges into node n of (gathered source row times the
    per-edge factor) at column q' + off of the wide computation is the same sum at column q' of the narrow one. -/
theorem agg_sum_columns {N E C C' off : Nat} {φ : FTy} (hN : 0 < N) (hoff : C' + off ≤ C)
    {g : GatherDims ⟨2, ![N, C]⟩ ⟨2, ![E, 1]⟩ ⟨2, ![E, C]⟩} (hg : IsRowGather g)
    {g' : GatherDims ⟨2, ![N, C']⟩ ⟨2, ![E, 1]⟩ ⟨2, ![E, C']⟩} (hg' : IsRowGather g')
    (idxS idxG : IVec ⟨2, ![E, 1]⟩ 32)
    (H : FVec Ideal ⟨2, ![N, C]⟩ φ) (nb : FVec Ideal ⟨2, ![E, C]⟩ φ)
    (H' : FVec Ideal ⟨2, ![N, C']⟩ φ) (nb' : FVec Ideal ⟨2, ![E, C']⟩ φ)
    (hH : ∀ (n : Fin N) (q' : Fin C'), H (ix2 n ⟨q'.val + off, by omega⟩) = H' (ix2 n q'))
    (hnb : ∀ (e : Fin E) (q' : Fin C'), nb (ix2 e ⟨q'.val + off, by omega⟩) = nb' (ix2 e q'))
    (n : Fin N) (q' : Fin C') :
    (∑ e : Fin E, if (idxS (ix2 e 0)).toInt = (n.val : Int)
        then mulf (Host.gather g H idxG) nb (ix2 e ⟨q'.val + off, by omega⟩) else 0)
      = ∑ e : Fin E, if (idxS (ix2 e 0)).toInt = (n.val : Int)
        then mulf (Host.gather g' H' idxG) nb' (ix2 e q') else 0 := by
  refine Finset.sum_congr rfl fun e _ => ?_
  by_cases h : (idxS (ix2 e 0)).toInt = (n.val : Int)
  · rw [if_pos h, if_pos h, mulf_apply, mulf_apply, hg.apply hN, hg'.apply hN, hH, hnb]
  · rw [if_neg h, if_neg h]

/-- THE COLUMN LAW. One aggregation layer — scatter-add into z of (gathered rows of H times the per-edge factor nb),
    plus H times the per-node factor ssb, plus the bias bb — on C columns, read at column q' + off, is the same layer
    on C' columns, read at column q', when each array of the second is the window of columns [off, off + C') of the
    corresponding array of the first. The two computations share the index arrays, so they add the same edges and read
    the same source rows. -/
theorem agg_columns {N E C C' off : Nat} {φ : FTy} (hN : 0 < N) (hoff : C' + off ≤ C)
    {d : ScatterDims ⟨2, ![N, C]⟩ ⟨2, ![E, 1]⟩ ⟨2, ![E, C]⟩} (hd : IsRowScatter d)
    {g : GatherDims ⟨2, ![N, C]⟩ ⟨2, ![E, 1]⟩ ⟨2, ![E, C]⟩} (hg : IsRowGather g)
    {d' : ScatterDims ⟨2, ![N, C']⟩ ⟨2, ![E, 1]⟩ ⟨2, ![E, C']⟩} (hd' : IsRowScatter d')
    {g' : GatherDims ⟨2, ![N, C']⟩ ⟨2, ![E, 1]⟩ ⟨2, ![E, C']⟩} (hg' : IsRowGather g')
    (idxS idxG : IVec ⟨2, ![E, 1]⟩ 32)
    (H ssb bb z : FVec Ideal ⟨2, ![N, C]⟩ φ) (nb : FVec Ideal ⟨2, ![E, C]⟩ φ)
    (H' ssb' bb' z' : FVec Ideal ⟨2, ![N, C']⟩ φ) (nb' : FVec Ideal ⟨2, ![E, C']⟩ φ)
    (hH : ∀ (n : Fin N) (q' : Fin C'), H (ix2 n ⟨q'.val + off, by omega⟩) = H' (ix2 n q'))
    (hnb : ∀ (e : Fin E) (q' : Fin C'), nb (ix2 e ⟨q'.val + off, by omega⟩) = nb' (ix2 e q'))
    (hss : ∀ (n : Fin N) (q' : Fin C'), ssb (ix2 n ⟨q'.val + off, by omega⟩) = ssb' (ix2 n q'))
    (hb : ∀ (n : Fin N) (q' : Fin C'), bb (ix2 n ⟨q'.val + off, by omega⟩) = bb' (ix2 n q'))
    (hz : ∀ (n : Fin N) (q' : Fin C'), z (ix2 n ⟨q'.val + off, by omega⟩) = z' (ix2 n q'))
    (n : Fin N) (q' : Fin C') :
    addf (addf (Host.scatterAdd (F := Ideal) d z idxS (mulf (Host.gather g H idxG) nb)) (mulf H ssb)) bb
        (ix2 n ⟨q'.val + off, by omega⟩)
      = addf (addf (Host.scatterAdd (F := Ideal) d' z' idxS (mulf (Host.gather g' H' idxG) nb')) (mulf H' ssb')) bb'
        (ix2 n q') := by
  rw [addf_apply, addf_apply, mulf_apply, addf_apply, addf_apply, mulf_apply, hd.apply, hd'.apply,
    agg_sum_columns hN hoff hg hg' idxS idxG H nb H' nb' hH hnb n q', hz, hH, hss, hb]

end Cert.Lib.AggColumns

end
-- ==== Proof.LibDotPlain.lean ====
/-
  A host matrix product read at an entry, on the extended reals.

  For the plain dimension numbers (contract the left operand's axis 1 with the right operand's axis 0, no batch
  axes: an M x K matrix times a K x N matrix), the entry (p, q) of the product is the sum over k of
  left (p, k) times right (k, q), whatever precision and schedule the operation names.  No program is imported:
  the dimension record is a variable, constrained only by its six lists.
-/
import Idealize.ShloMosaic.PureOps.Ideal.Laws
import Idealize.ShloMosaic.Lib.ValueIdx

noncomputable section

namespace Cert.LibDotPlain

open Idealize.ShloMosaic Idealize.ShloMosaic.ValueIdx

/-- Entry (p, q) of an M x K by K x N host product is the sum over the contracted axis. -/
theorem dotGeneral_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (prec : Option ContractPrecision)
    (l : FVec Ideal ⟨2, ![M, K]⟩ φ₁) (r : FVec Ideal ⟨2, ![K, N]⟩ φ₂) (p : Fin M) (q : Fin N) :
    Host.dotGeneral D prec l r (ix2 p q) = ∑ k : Fin K, l (ix2 p k) * r (ix2 k q) := by
  obtain ⟨lc, rc, ln, rn, lb, rb, wf⟩ := D
  dsimp only at h1 h2 h3 h4 h5 h6
  subst h1 h2 h3 h4 h5 h6
  refine (Ideal.dotGeneral_apply _ prec _ l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibDotPlain

end
-- ==== Proof.LibBcastRead.lean ====
/-
  Broadcasts of vectors over a matrix, read at an entry.

  A length-`E` vector turned into an `E × 1` column and then spread over `C` columns has, at entry
  `(e, q)`, the vector's entry `e`, whatever the column `q`. A length-`C` vector turned into a
  `1 × C` row and then spread over `N` rows has, at entry `(n, q)`, the vector's entry `q`. A scalar
  spread over any shape has the scalar at every entry. No program is imported.
-/
import Idealize.ShloMosaic.Lib.Pipeline.Value
import Idealize.ShloMosaic.Lib.ValueIdx

noncomputable section

namespace Cert.Lib.BcastRead

open Idealize.ShloMosaic Idealize.ShloMosaic.ValueIdx

variable {α : Type}

/-- A vector as a column, spread over the columns: entry `(e, q)` is the vector's entry `e`. -/
theorem col_spread_apply {E C : Nat} (hE : E ≠ 1)
    (h1 : (⟨1, ![E]⟩ : Shape).BroadcastsInDim ⟨2, ![E, 1]⟩ ![0])
    (h2 : (⟨2, ![E, 1]⟩ : Shape).BroadcastsInDim ⟨2, ![E, C]⟩ ![0, 1])
    (v : (⟨1, ![E]⟩ : Shape).Idx → α) (e : Fin E) (q : Fin C) :
    broadcastInDim ⟨2, ![E, C]⟩ ![0, 1] h2 (broadcastInDim ⟨2, ![E, 1]⟩ ![0] h1 v) (ix2 e q) = v (ix1 e) := by
  rw [broadcastInDim_apply ![0, 1] h2 _ (ix2 e q) (ix2 e (0 : Fin 1)) (fun a => by
    match a with
    | ⟨0, _⟩ => exact (if_neg hE).symm
    | ⟨1, _⟩ => exact (if_pos rfl).symm)]
  exact broadcastInDim_apply ![0] h1 v (ix2 e (0 : Fin 1)) (ix1 e) (fun a => by
    match a with
    | ⟨0, _⟩ => exact (if_neg hE).symm)

/-- A vector as a row, spread over the rows: entry `(n, q)` is the vector's entry `q`. -/
theorem row_spread_apply {N C : Nat} (hC : C ≠ 1)
    (h1 : (⟨1, ![C]⟩ : Shape).BroadcastsInDim ⟨2, ![1, C]⟩ ![1])
    (h2 : (⟨2, ![1, C]⟩ : Shape).BroadcastsInDim ⟨2, ![N, C]⟩ ![0, 1])
    (v : (⟨1, ![C]⟩ : Shape).Idx → α) (n : Fin N) (q : Fin C) :
    broadcastInDim ⟨2, ![N, C]⟩ ![0, 1] h2 (broadcastInDim ⟨2, ![1, C]⟩ ![1] h1 v) (ix2 n q) = v (ix1 q) := by
  rw [broadcastInDim_apply ![0, 1] h2 _ (ix2 n q) (ix2 (0 : Fin 1) q) (fun a => by
    match a with
    | ⟨0, _⟩ => exact (if_pos rfl).symm
    | ⟨1, _⟩ => exact (if_neg hC).symm)]
  exact broadcastInDim_apply ![1] h1 v (ix2 (0 : Fin 1) q) (ix1 q) (fun a => by
    match a with
    | ⟨0, _⟩ => exact (if_neg hC).symm)

/-- A scalar spread over a shape: every entry is the scalar. -/
theorem scalar_spread_apply {T : Shape} (h : (⟨0, ![]⟩ : Shape).BroadcastsInDim T ![])
    (x : (⟨0, ![]⟩ : Shape).Idx → α) (j : T.Idx) :
    broadcastInDim T ![] h x j = x ix0 :=
  broadcastInDim_apply ![] h x j ix0 (fun a => a.elim0)

end Cert.Lib.BcastRead

end
-- ==== Proof.BridgeHeads.lean ====
/-
  The two heads, computed together and computed apart.

  The kernel multiplies the hidden features `h` by the two heads' weights set side by side,
  `[Wmu | Wls]`, runs ONE graph convolution on the 128-column product with the two biases one after
  the other, and cuts the result into columns 0–63 and 64–127. The reference multiplies `h` by each
  head's weights, and runs one graph convolution on each 64-column product.
  Column `q + off` of `h · [Wmu | Wls]` is column `q` of `h · Wmu` (`off = 0`) or of `h · Wls`
  (`off = 64`); a graph convolution acts on each column by itself — row `n` of column `q` is a sum over
  the edges into `n` of that column's entries, plus that column's entry at `n`, plus that column's
  bias —, so the two computations agree entry by entry. No finiteness is used: sums of equal terms.
-/
import proofs.«142419_j83915071030119_1_alg».proof.Proof.KernelTerms
import proofs.«142419_j83915071030119_1_alg».proof.Proof.RefTerms
import proofs.«142419_j83915071030119_1_alg».proof.Proof.RegionMatmul0
import proofs.«142419_j83915071030119_1_alg».proof.Proof.LibAggColumns
import proofs.«142419_j83915071030119_1_alg».proof.Proof.LibDotPlain
import proofs.«142419_j83915071030119_1_alg».proof.Proof.LibBcastRead
import Idealize.ShloMosaic.Lib.Pipeline.Value
import Idealize.ShloMosaic.Lib.ValueIdx

set_option maxRecDepth 16384

noncomputable section

namespace Cert.Bridge

open Idealize.ShloMosaic Idealize.ShloMosaic.ValueIdx
open Cert.Lib.AggColumns Cert.Lib.BcastRead
open Cert.KernelIdeal.RegionValue (matProd matProd_apply)

abbrev IdxVec := (⟨1, ![1600000]⟩ : Shape).Idx → BitVec 32
abbrev EdgeVec := (⟨1, ![1600000]⟩ : Shape).Idx → EReal
abbrev NodeVec := (⟨1, ![100000]⟩ : Shape).Idx → EReal
abbrev Hid := (⟨2, ![100000, 128]⟩ : Shape).Idx → EReal
abbrev W64 := (⟨2, ![128, 64]⟩ : Shape).Idx → EReal
abbrev B64 := (⟨1, ![64]⟩ : Shape).Idx → EReal

/-- Column `q` of `h · [Wmu | Wls]` is column `q` of `h · Wmu`. -/
theorem proj_left (h : Hid) (wmu wls : W64) (n : Fin 100000) (q : Fin 64) :
    matProd h (Cert.KernelIdeal.Terms.wcomb (F := Ideal) wmu wls) (ix2 n (⟨q.val + 0, by omega⟩ : Fin 128))
      = Cert.ReferenceIdeal.Terms.proj64 (F := Ideal) h wmu (ix2 n q) := by
  rw [matProd_apply]
  unfold Cert.ReferenceIdeal.Terms.proj64
  rw [Cert.LibDotPlain.dotGeneral_apply _ rfl rfl rfl rfl rfl rfl none h wmu n q]
  refine Finset.sum_congr rfl fun k _ => ?_
  congr 1
  unfold Cert.KernelIdeal.Terms.wcomb
  exact concatenate_pair_apply_left (t := ⟨2, ![128, 128]⟩) (s₁ := ⟨2, ![128, 64]⟩) (s₂ := ⟨2, ![128, 64]⟩) 1 wmu wls _ (ix2 k (⟨q.val + 0, by omega⟩ : Fin 128)) rfl (ix2 k q) (fun b => by
    match b with
    | ⟨0, _⟩ => rfl
    | ⟨1, _⟩ => rfl)

/-- Column `q + 64` of `h · [Wmu | Wls]` is column `q` of `h · Wls`. -/
theorem proj_right (h : Hid) (wmu wls : W64) (n : Fin 100000) (q : Fin 64) :
    matProd h (Cert.KernelIdeal.Terms.wcomb (F := Ideal) wmu wls) (ix2 n (⟨q.val + 64, by omega⟩ : Fin 128))
      = Cert.ReferenceIdeal.Terms.proj64 (F := Ideal) h wls (ix2 n q) := by
  rw [matProd_apply]
  unfold Cert.ReferenceIdeal.Terms.proj64
  rw [Cert.LibDotPlain.dotGeneral_apply _ rfl rfl rfl rfl rfl rfl none h wls n q]
  refine Finset.sum_congr rfl fun k _ => ?_
  congr 1
  unfold Cert.KernelIdeal.Terms.wcomb
  exact concatenate_pair_apply_right (t := ⟨2, ![128, 128]⟩) (s₁ := ⟨2, ![128, 64]⟩) (s₂ := ⟨2, ![128, 64]⟩) 1 wmu wls _ (ix2 k (⟨q.val + 64, by omega⟩ : Fin 128)) rfl rfl (ix2 k q) (fun b hb => by
    match b with
    | ⟨0, _⟩ => rfl
    | ⟨1, _⟩ => exact absurd rfl hb) rfl

/-- Entry `q` of the two biases one after the other is entry `q` of the first. -/
theorem bias_left (bmu bls : B64) (q : Fin 64) :
    Cert.KernelIdeal.Terms.bcomb (F := Ideal) bmu bls (ix1 (⟨q.val + 0, by omega⟩ : Fin 128)) = bmu (ix1 q) := by
  unfold Cert.KernelIdeal.Terms.bcomb
  exact concatenate_pair_apply_left (t := ⟨1, ![128]⟩) (s₁ := ⟨1, ![64]⟩) (s₂ := ⟨1, ![64]⟩) 0 bmu bls _ (ix1 (⟨q.val + 0, by omega⟩ : Fin 128)) rfl (ix1 q) (fun b => by
    match b with
    | ⟨0, _⟩ => rfl)

/-- Entry `q + 64` of the two biases one after the other is entry `q` of the second. -/
theorem bias_right (bmu bls : B64) (q : Fin 64) :
    Cert.KernelIdeal.Terms.bcomb (F := Ideal) bmu bls (ix1 (⟨q.val + 64, by omega⟩ : Fin 128)) = bls (ix1 q) := by
  unfold Cert.KernelIdeal.Terms.bcomb
  exact concatenate_pair_apply_right (t := ⟨1, ![128]⟩) (s₁ := ⟨1, ![64]⟩) (s₂ := ⟨1, ![64]⟩) 0 bmu bls _ (ix1 (⟨q.val + 64, by omega⟩ : Fin 128)) rfl rfl (ix1 q) (fun b hb => by
    match b with
    | ⟨0, _⟩ => exact absurd rfl hb) rfl

/-- Columns `off … off + 63` of one graph convolution of `h · [Wmu | Wls]` are the graph convolution of
    the 64-column matrix `H'` that those columns of the product are, with the bias `b'` that those
    entries of the joined bias are. -/
theorem head_columns (off : Nat) (hoff : 64 + off ≤ 128) (s d : IdxVec) (nrm : EdgeVec) (ss : NodeVec) (h : Hid)
    (wmu wls : W64) (bmu bls : B64) (H' : (⟨2, ![100000, 64]⟩ : Shape).Idx → EReal) (b' : B64)
    (hH : ∀ (n : Fin 100000) (q : Fin 64),
      matProd h (Cert.KernelIdeal.Terms.wcomb (F := Ideal) wmu wls) (ix2 n (⟨q.val + off, by omega⟩ : Fin 128)) = H' (ix2 n q))
    (hb : ∀ q : Fin 64, Cert.KernelIdeal.Terms.bcomb (F := Ideal) bmu bls (ix1 (⟨q.val + off, by omega⟩ : Fin 128)) = b' (ix1 q))
    (n : Fin 100000) (q : Fin 64) :
    Cert.KernelIdeal.Terms.layer (F := Ideal) s d nrm ss (matProd h (Cert.KernelIdeal.Terms.wcomb (F := Ideal) wmu wls))
        (Cert.KernelIdeal.Terms.bcomb (F := Ideal) bmu bls) (ix2 n (⟨q.val + off, by omega⟩ : Fin 128))
      = Cert.ReferenceIdeal.Terms.layer64 (F := Ideal) s d nrm ss H' b' (ix2 n q) := by
  unfold Cert.KernelIdeal.Terms.layer Cert.ReferenceIdeal.Terms.layer64
  refine agg_columns (N := 100000) (E := 1600000) (C := 128) (C' := 64) (off := off) (by decide) hoff
    (d := Cert.KernelIdeal.scatter_S100000x128_S1600000x1_S1600000x128_1_0_0_1) ⟨rfl, rfl, rfl, rfl⟩
    (g := Cert.KernelIdeal.gather_S100000x128_S1600000x1_S1600000x128_1_0_n_n_0_1_1128) ⟨rfl, rfl, rfl, rfl, rfl, rfl, rfl⟩
    (d' := Cert.ReferenceIdeal.scatter_S100000x64_S1600000x1_S1600000x64_1_0_0_1) ⟨rfl, rfl, rfl, rfl⟩
    (g' := Cert.ReferenceIdeal.gather_S100000x64_S1600000x1_S1600000x64_1_0_n_n_0_1_164) ⟨rfl, rfl, rfl, rfl, rfl, rfl, rfl⟩
    _ _ _ _ _ _ _ _ _ _ _ _ hH ?_ ?_ ?_ ?_ n q
  · intro e q'
    exact (col_spread_apply (by decide) _ _ nrm e _).trans (col_spread_apply (by decide) _ _ nrm e q').symm
  · intro n' q'
    exact (col_spread_apply (by decide) _ _ ss n' _).trans (col_spread_apply (by decide) _ _ ss n' q').symm
  · intro n' q'
    exact ((row_spread_apply (by decide) _ _ _ n' _).trans (hb q')).trans (row_spread_apply (by decide) _ _ b' n' q').symm
  · intro n' q'
    exact (scalar_spread_apply _ _ _).trans (scalar_spread_apply _ _ _).symm

end Cert.Bridge

end
-- ==== Proof.BridgeFinal.lean ====
/-
  The kernel's three results are the reference's.

  Both programs compute, from the same edge list, the same normalisation and self-loop weights, by
  the same operations. The hidden layer is one graph convolution of the input features times the
  first weights: the kernel's blockwise product and the reference's whole product are the same sum
  over the contracted axis at every entry. For the two heads the kernel convolves `h · [Wmu | Wls]`
  once and cuts the columns; the reference convolves `h · Wmu` and `h · Wls` apart: equal column by
  column. The sample is, entry by entry, the mean plus the noise times the exponential of the
  log-deviation in both.
-/
import proofs.«142419_j83915071030119_1_alg».proof.Proof.BridgeHeads
import proofs.«142419_j83915071030119_1_alg».proof.Proof.RegionReparam

set_option maxRecDepth 16384

noncomputable section

namespace Cert.Bridge

open Idealize.ShloMosaic Idealize.ShloMosaic.ValueIdx
open Cert.KernelIdeal.RegionValue (matProd matProd_apply combine)

abbrev Edges := (⟨2, ![2, 1600000]⟩ : Shape).Idx → BitVec 32
abbrev W128 := (⟨2, ![128, 128]⟩ : Shape).Idx → EReal
abbrev B128 := (⟨1, ![128]⟩ : Shape).Idx → EReal
abbrev Out := (⟨2, ![100000, 64]⟩ : Shape).Idx → EReal

/-- The blockwise product is the whole product. -/
theorem matProd_eq_proj (x : Hid) (w : W128) :
    matProd x w = Cert.ReferenceIdeal.Terms.proj128 (F := Ideal) x w := by
  funext i
  obtain ⟨r, q, rfl⟩ : ∃ (r : Fin 100000) (q : Fin 128), i = ix2 r q := ⟨i 0, i 1, eq_ix2 i⟩
  rw [matProd_apply]
  unfold Cert.ReferenceIdeal.Terms.proj128
  exact (Cert.LibDotPlain.dotGeneral_apply _ rfl rfl rfl rfl rfl rfl none x w r q).symm

/-- The kernel's hidden layer, as the walk through its segments names it. -/
def hiddenK (a1 : Edges) (x : Hid) (w1 : W128) (b1 : B128) : Hid :=
  Cert.KernelIdeal.Terms.layer (F := Ideal) (Cert.KernelIdeal.Terms.src a1) (Cert.KernelIdeal.Terms.dst a1)
    (Cert.KernelIdeal.Terms.norm (Cert.KernelIdeal.Terms.src a1) (Cert.KernelIdeal.Terms.dst a1))
    (Cert.KernelIdeal.Terms.selfScale (Cert.KernelIdeal.Terms.dst a1)) (matProd x w1) b1

/-- The kernel's second convolution, of the hidden layer times the two heads' weights side by side. -/
def combK (a1 : Edges) (x : Hid) (w1 : W128) (b1 : B128) (wmu wls : W64) (bmu bls : B64) : Hid :=
  Cert.KernelIdeal.Terms.layer (F := Ideal) (Cert.KernelIdeal.Terms.src a1) (Cert.KernelIdeal.Terms.dst a1)
    (Cert.KernelIdeal.Terms.norm (Cert.KernelIdeal.Terms.src a1) (Cert.KernelIdeal.Terms.dst a1))
    (Cert.KernelIdeal.Terms.selfScale (Cert.KernelIdeal.Terms.dst a1))
    (matProd (hiddenK a1 x w1 b1) (Cert.KernelIdeal.Terms.wcomb (F := Ideal) wmu wls))
    (Cert.KernelIdeal.Terms.bcomb (F := Ideal) bmu bls)

/-- The hidden layers agree. -/
theorem hidden_eq (a1 : Edges) (x : Hid) (w1 : W128) (b1 : B128) :
    hiddenK a1 x w1 b1 = Cert.ReferenceIdeal.Terms.hidden (F := Ideal) a1 x w1 b1 := by
  unfold hiddenK
  rw [matProd_eq_proj]
  rfl

/-- The mean heads agree. -/
theorem mu_eq (a1 : Edges) (x : Hid) (w1 : W128) (b1 : B128) (wmu wls : W64) (bmu bls : B64) :
    Cert.KernelIdeal.Terms.headMu (F := Ideal) (combK a1 x w1 b1 wmu wls bmu bls)
      = Cert.ReferenceIdeal.Terms.head (F := Ideal) a1 (Cert.ReferenceIdeal.Terms.hidden (F := Ideal) a1 x w1 b1) wmu bmu := by
  funext i
  obtain ⟨r, q, rfl⟩ : ∃ (r : Fin 100000) (q : Fin 64), i = ix2 r q := ⟨i 0, i 1, eq_ix2 i⟩
  unfold Cert.KernelIdeal.Terms.headMu
  rw [extractStridedSlice_apply ![0, 0] _ _ (ix2 r q) (ix2 r (⟨q.val + 0, by omega⟩ : Fin 128)) (fun a => by
    match a with
    | ⟨0, _⟩ => exact (Nat.zero_add _).symm
    | ⟨1, _⟩ => exact Nat.add_comm _ _)]
  unfold combK
  rw [head_columns 0 (by decide) _ _ _ _ (hiddenK a1 x w1 b1) wmu wls bmu bls
    (Cert.ReferenceIdeal.Terms.proj64 (F := Ideal) (hiddenK a1 x w1 b1) wmu) bmu
    (proj_left _ wmu wls) (bias_left bmu bls) r q, hidden_eq]
  rfl

/-- The log-deviation heads agree. -/
theorem ls_eq (a1 : Edges) (x : Hid) (w1 : W128) (b1 : B128) (wmu wls : W64) (bmu bls : B64) :
    Cert.KernelIdeal.Terms.headLs (F := Ideal) (combK a1 x w1 b1 wmu wls bmu bls)
      = Cert.ReferenceIdeal.Terms.head (F := Ideal) a1 (Cert.ReferenceIdeal.Terms.hidden (F := Ideal) a1 x w1 b1) wls bls := by
  funext i
  obtain ⟨r, q, rfl⟩ : ∃ (r : Fin 100000) (q : Fin 64), i = ix2 r q := ⟨i 0, i 1, eq_ix2 i⟩
  unfold Cert.KernelIdeal.Terms.headLs
  rw [extractStridedSlice_apply ![0, 64] _ _ (ix2 r q) (ix2 r (⟨q.val + 64, by omega⟩ : Fin 128)) (fun a => by
    match a with
    | ⟨0, _⟩ => exact (Nat.zero_add _).symm
    | ⟨1, _⟩ => exact Nat.add_comm _ _)]
  unfold combK
  rw [head_columns 64 (by decide) _ _ _ _ (hiddenK a1 x w1 b1) wmu wls bmu bls
    (Cert.ReferenceIdeal.Terms.proj64 (F := Ideal) (hiddenK a1 x w1 b1) wls) bls
    (proj_right _ wmu wls) (bias_right bmu bls) r q, hidden_eq]
  rfl

/-- The samples agree, given the heads. -/
theorem sample_eq (mu ls eps : Out) :
    combine mu ls eps = Cert.ReferenceIdeal.Terms.sample (F := Ideal) mu ls eps := by
  funext i
  rfl

end Cert.Bridge

end
-- ==== Proof.lean ====
/-
  A two-layer graph-convolutional encoder with a reparameterised sample, a blocked kernel against a
  plain reference, over the extended reals.

  From node features `x`, an edge list, and the weights, both programs compute the degrees
  `deg n = 1 + #{e | target e = n}`, `dis = deg^(-1/2)`, the edges' normalisation
  `dis (source e) · dis (target e)` and the self-loop weight `dis n²`; a graph convolution of a projected
  feature matrix `H` with bias `b` has, in row `n`,
      Σ_{e : target e = n} norm e · H[source e]  +  dis n² · H[n]  +  b.
  The hidden layer is the convolution of `x · W1`; the mean and the log-deviation are the convolutions
  of `h · Wmu` and `h · Wls`; the sample is `mu + eps · exp(logstd)`.

  The kernel computes the two projections block by block over rows (each entry still the whole sum
  over the contracted axis), projects the hidden layer ONCE by `[Wmu | Wls]`, convolves the
  128-column product once, and cuts the two heads out of the columns; a convolution acts on every
  column by itself, so the heads agree with the reference's entry by entry. The sample is pointwise.
  Nothing here needs the inputs to be finite: only sums and products of equal terms are compared.

  The frames of the two kernel programs are their generated frame certificates; the reference's is
  its run with the results dropped. The idealization rewrote no operation, so `preserves` is trivial.
-/
import proofs.«142419_j83915071030119_1_alg».proof.Defs
import proofs.«142419_j83915071030119_1_alg».proof.Proof.Gen.Kernel
import proofs.«142419_j83915071030119_1_alg».proof.Proof.Gen.Kernel.Skeleton
import proofs.«142419_j83915071030119_1_alg».proof.Proof.Gen.Kernel.Launch
import proofs.«142419_j83915071030119_1_alg».proof.Proof.Gen.Kernel.Points
import proofs.«142419_j83915071030119_1_alg».proof.Proof.Gen.Kernel.Frame
import proofs.«142419_j83915071030119_1_alg».proof.Proof.Gen.KernelIdeal
import proofs.«142419_j83915071030119_1_alg».proof.Proof.Gen.KernelIdeal.Skeleton
import proofs.«142419_j83915071030119_1_alg».proof.Proof.Gen.KernelIdeal.Launch
import proofs.«142419_j83915071030119_1_alg».proof.Proof.Gen.KernelIdeal.Points
import proofs.«142419_j83915071030119_1_alg».proof.Proof.Gen.KernelIdeal.Frame
import proofs.«142419_j83915071030119_1_alg».proof.Proof.Gen.ReferenceIdeal
import proofs.«142419_j83915071030119_1_alg».proof.Proof.Gen.ReferenceIdeal.Run
import proofs.«142419_j83915071030119_1_alg».proof.Proof.Gen.Pre_finite_inputs
import proofs.«142419_j83915071030119_1_alg».proof.Proof.KernelRun
import proofs.«142419_j83915071030119_1_alg».proof.Proof.KernelValue
import proofs.«142419_j83915071030119_1_alg».proof.Proof.RefValue
import proofs.«142419_j83915071030119_1_alg».proof.Proof.BridgeFinal
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the same sample, mean and log-deviation: the kernel's results are the last
    valuation of the walk through its segments, named as the arithmetic of the arguments; the
    reference's are its run's terms, the same arithmetic with the heads computed apart. -/
theorem algebraic : Cert.algebraic_KernelIdeal_ReferenceIdeal := by
  intro m ρ m' ρ' _ hagree
  refine ⟨fun c => Cert.KernelIdeal.Gen.W6 m ρ c (Proc.devRef .tc Cert.KernelIdeal.main_v73),
    fun c => Cert.KernelIdeal.Gen.W6 m ρ c (Proc.devRef .tc Cert.KernelIdeal.main_v71),
    fun c => Cert.KernelIdeal.Gen.W6 m ρ c (Proc.devRef .tc Cert.KernelIdeal.main_v72),
    Cert.KernelIdeal.RunValue.run_results m ρ, ?_⟩
  refine (θ_run Cert.ReferenceIdeal.defs _ _).mono (fun _ h c => ?_) (Cert.ReferenceIdeal.Value.run (F := Ideal) m' ρ')
  have hmu := Cert.Bridge.mu_eq (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg5)) (m ((c.tc : Thread Cert.KernelIdeal.nD Cert.KernelIdeal.τ).loc Cert.KernelIdeal.main_arg7))
  have hls := Cert.Bridge.ls_eq (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg5)) (m ((c.tc : Thread Cert.KernelIdeal.nD Cert.KernelIdeal.τ).loc Cert.KernelIdeal.main_arg7))
  obtain ⟨g0, g1, g2, g3, g4, g5, g6, g7, g8⟩ := hagree c
  have emu : Cert.ReferenceIdeal.Value.res_main_v84 m' c
      = Cert.KernelIdeal.Gen.W6 m ρ c (Proc.devRef .tc Cert.KernelIdeal.main_v71) := by
    rw [Cert.ReferenceIdeal.RefValue.res_mu, g0, g1, g2, g3, g4, g5, Cert.KernelIdeal.KernelValue.W6_v71]
    exact hmu.symm
  have els : Cert.ReferenceIdeal.Value.res_main_v121 m' c
      = Cert.KernelIdeal.Gen.W6 m ρ c (Proc.devRef .tc Cert.KernelIdeal.main_v72) := by
    rw [Cert.ReferenceIdeal.RefValue.res_ls, g0, g1, g2, g3, g6, g7, Cert.KernelIdeal.KernelValue.W6_v72]
    exact hls.symm
  have ez : Cert.ReferenceIdeal.Value.res_main_v124 m' c
      = Cert.KernelIdeal.Gen.W6 m ρ c (Proc.devRef .tc Cert.KernelIdeal.main_v73) := by
    rw [Cert.ReferenceIdeal.RefValue.res_z, emu, els, g8, Cert.KernelIdeal.KernelValue.W6_v73,
      Cert.KernelIdeal.KernelValue.W6_v71, Cert.KernelIdeal.KernelValue.W6_v72]
    exact (Cert.Bridge.sample_eq _ _ _).symm
  exact ⟨(h c).1.trans ez, (h c).2.1.trans emu, (h c).2.2.1.trans els, (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
